-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x2048x2048 : Shape := ⟨4, ![4, 3, 2048, 2048]⟩
abbrev S4x1x2048x2048 : Shape := ⟨4, ![4, 1, 2048, 2048]⟩
abbrev S2048x2048 : Shape := ⟨2, ![2048, 2048]⟩
abbrev S_ : Shape := ⟨0, ![]⟩

class Facts : Prop where
  bcast_S_S4x3x2048x2048 : S_.BroadcastsInDim S4x3x2048x2048 (![] : Fin 0 → Fin S4x3x2048x2048.rank)
  reducesTo_S4x3x2048x2048_S_d0_1_2_3 : S4x3x2048x2048.ReducesTo [0, 1, 2, 3] S_
  h_S_ : 0 < S_.numel
  bcast_S_S4x1x2048x2048 : S_.BroadcastsInDim S4x1x2048x2048 (![] : Fin 0 → Fin S4x1x2048x2048.rank)
  reducesTo_S4x1x2048x2048_S_d0_1_2_3 : S4x1x2048x2048.ReducesTo [0, 1, 2, 3] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x3x2048x2048 .f32) (main_arg1 : FVec F S4x1x2048x2048 .f32) (main_arg2 : FVec F S2048x2048 .f32) : IVec S_ 1 :=
  let main_v0 : FVec F S4x3x2048x2048 .f32 := Host.absf main_arg0
  let main_cst : FVec F S_ .f32 := constant S_ .f32 0x7F800000#32
  let main_v1 : FVec F S4x3x2048x2048 .f32 := broadcastInDim S4x3x2048x2048 ![] bcast_S_S4x3x2048x2048 main_cst
  let main_v2 : IVec S4x3x2048x2048 1 := cmpf .olt main_v0 main_v1
  let main_c : IVec S_ 1 := constantI S_ 1 1#1
  let main_v3 : IVec S_ 1 := (fun x v => Host.reduce IntOp.andi x v reducesTo_S4x3x2048x2048_S_d0_1_2_3 h_S_) main_v2 main_c
  let main_v4 : FVec F S4x1x2048x2048 .f32 := Host.absf main_arg1
  let main_cst_0 : FVec F S_ .f32 := constant S_ .f32 0x7F800000#32
  let main_v5 : FVec F S4x1x2048x2048 .f32 := broadcastInDim S4x1x2048x2048 ![] bcast_S_S4x1x2048x2048 main_cst_0
  let main_v6 : IVec S4x1x2048x2048 1 := cmpf .olt main_v4 main_v5
  let main_c_1 : IVec S_ 1 := constantI S_ 1 1#1
  let main_v7 : IVec S_ 1 := (fun x v => Host.reduce IntOp.andi x v reducesTo_S4x1x2048x2048_S_d0_1_2_3 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S4x3x2048x2048 : Shape := ⟨4, ![4, 3, 2048, 2048]⟩
abbrev S4x1x2048x2048 : Shape := ⟨4, ![4, 1, 2048, 2048]⟩
abbrev S2048x2048 : Shape := ⟨2, ![2048, 2048]⟩
abbrev S1x1x128x2048 : Shape := ⟨4, ![1, 1, 128, 2048]⟩
abbrev S128x2048 : Shape := ⟨2, ![128, 2048]⟩
abbrev S1x1x8x2048 : Shape := ⟨4, ![1, 1, 8, 2048]⟩
abbrev S1x3x128x2048 : Shape := ⟨4, ![1, 3, 128, 2048]⟩
abbrev S1x1x1x2048 : Shape := ⟨4, ![1, 1, 1, 2048]⟩
abbrev S1x2048 : Shape := ⟨2, ![1, 2048]⟩
abbrev S127x2048 : Shape := ⟨2, ![127, 2048]⟩

abbrev nBuf : Space → Nat
  | .hbm => 4
  | .vmem => 16
  | .smem => 0
  | _ => 0

abbrev bufTy : (tb : Table) → Fin (tcTables nBuf tb) → BufTy
  | .hbm, ⟨0, _⟩ => ⟨S4x3x2048x2048, .f32⟩
  | .hbm, ⟨1, _⟩ => ⟨S4x1x2048x2048, .f32⟩
  | .hbm, ⟨2, _⟩ => ⟨S2048x2048, .f32⟩
  | .hbm, ⟨3, _⟩ => ⟨S4x3x2048x2048, .f32⟩
  | .local _ .vmem, ⟨0, _⟩ => ⟨S1x1x128x2048, .f32⟩
  | .local _ .vmem, ⟨1, _⟩ => ⟨S1x1x128x2048, .f32⟩
  | .local _ .vmem, ⟨2, _⟩ => ⟨S1x1x128x2048, .f32⟩
  | .local _ .vmem, ⟨3, _⟩ => ⟨S1x1x128x2048, .f32⟩
  | .local _ .vmem, ⟨4, _⟩ => ⟨S1x1x128x2048, .f32⟩
  | .local _ .vmem, ⟨5, _⟩ => ⟨S1x1x128x2048, .f32⟩
  | .local _ .vmem, ⟨6, _⟩ => ⟨S1x1x128x2048, .f32⟩
  | .local _ .vmem, ⟨7, _⟩ => ⟨S1x1x128x2048, .f32⟩
  | .local _ .vmem, ⟨8, _⟩ => ⟨S128x2048, .f32⟩
  | .local _ .vmem, ⟨9, _⟩ => ⟨S128x2048, .f32⟩
  | .local _ .vmem, ⟨10, _⟩ => ⟨S1x1x8x2048, .f32⟩
  | .local _ .vmem, ⟨11, _⟩ => ⟨S1x1x8x2048, .f32⟩
  | .local _ .vmem, ⟨12, _⟩ => ⟨S1x1x8x2048, .f32⟩
  | .local _ .vmem, ⟨13, _⟩ => ⟨S1x1x8x2048, .f32⟩
  | .local _ .vmem, ⟨14, _⟩ => ⟨S1x3x128x2048, .f32⟩
  | .local _ .vmem, ⟨15, _⟩ => ⟨S1x3x128x2048, .f32⟩
  | _, _ => ⟨S4x3x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c256_i32 : BitVec 32 := 256#32
  let c0_i32 : BitVec 32 := 0#32
  let v2 : BitVec 1 := Scalar.cmpi .eq c256_i32 c0_i32
  let c1_i32_0 : BitVec 32 := 1#32
  let v3 : BitVec 32 := Scalar.select v2 c1_i32_0 c256_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg1.toNat, c0_i32_4.toNat, v11.toNat, c0_i32_5.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c256_i32 : BitVec 32 := 256#32
  let c0_i32 : BitVec 32 := 0#32
  let v2 : BitVec 1 := Scalar.cmpi .eq c256_i32 c0_i32
  let c1_i32_0 : BitVec 32 := 1#32
  let v3 : BitVec 32 := Scalar.select v2 c1_i32_0 c256_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg1.toNat, c0_i32_4.toNat, v11.toNat, c0_i32_5.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1x1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x1x128x2048_S1x1x128x2048_0_0_0_0 : ∀ a, (![0, 0, 0, 0] : Fin 4 → Nat) a + S1x1x128x2048.size a ≤ S1x1x128x2048.size a
  h_S1x1x128x2048 : 0 < S1x1x128x2048.numel
  shapeCasts_S1x1x128x2048_S128x2048 : S1x1x128x2048.ShapeCasts S128x2048
  inb_S128x2048_S128x2048_0_0 : ∀ a, (![0, 0] : Fin 2 → Nat) a + S128x2048.size a ≤ S128x2048.size a
  h_S128x2048 : 0 < S128x2048.numel
  inb_S1x1x8x2048_S1x1x1x2048_0_0_7_0 : ∀ a, (![0, 0, 7, 0] : Fin 4 → Nat) a + S1x1x1x2048.size a ≤ S1x1x8x2048.size a
  h_S1x1x1x2048 : 0 < S1x1x1x2048.numel
  shapeCasts_S1x1x1x2048_S1x2048 : S1x1x1x2048.ShapeCasts S1x2048
  inb_S1x1x8x2048_S1x1x1x2048_0_0_0_0 : ∀ a, (![0, 0, 0, 0] : Fin 4 → Nat) a + S1x1x1x2048.size a ≤ S1x1x8x2048.size a
  slices_S128x2048_o0_0_S127x2048 : S128x2048.Slices ![0, 0] S127x2048
  concatenates_S1x2048_S127x2048_S128x2048_d0 : Shape.Concatenates [S1x2048, S127x2048] S128x2048 0
  slices_S128x2048_o1_0_S127x2048 : S128x2048.Slices ![1, 0] S127x2048
  concatenates_S127x2048_S1x2048_S128x2048_d0 : Shape.Concatenates [S127x2048, S1x2048] S128x2048 0
  rotates_S128x2048_d1 : S128x2048.Rotates 1 none
  inb_S1x3x128x2048_S1x1x128x2048_0_0_0_0 : ∀ a, (![0, 0, 0, 0] : Fin 4 → Nat) a + S1x1x128x2048.size a ≤ S1x3x128x2048.size a
  shapeCasts_S128x2048_S1x1x128x2048 : S128x2048.ShapeCasts S1x1x128x2048
  inb_S1x3x128x2048_S1x1x128x2048_0_1_0_0 : ∀ a, (![0, 1, 0, 0] : Fin 4 → Nat) a + S1x1x128x2048.size a ≤ S1x3x128x2048.size a
  inb_S1x3x128x2048_S1x1x128x2048_0_2_0_0 : ∀ a, (![0, 2, 0, 0] : Fin 4 → Nat) a + S1x1x128x2048.size a ≤ S1x3x128x2048.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x2048.size a ≤ S4x3x2048x2048.size a
  hwx0_0 : ∀ i : grid0.Coords, EltTy.bits .f32 = 32 ∨ (Rect.block (s := S4x3x2048x2048) S1x1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x2048.size a ≤ S4x3x2048x2048.size a
  hwx0_1 : ∀ i : grid0.Coords, EltTy.bits .f32 = 32 ∨ (Rect.block (s := S4x3x2048x2048) S1x1x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x2048.size a ≤ S4x3x2048x2048.size a
  hwx0_2 : ∀ i : grid0.Coords, EltTy.bits .f32 = 32 ∨ (Rect.block (s := S4x3x2048x2048) S1x1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x2048.size a ≤ S4x1x2048x2048.size a
  hwx0_3 : ∀ i : grid0.Coords, EltTy.bits .f32 = 32 ∨ (Rect.block (s := S4x1x2048x2048) S1x1x128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S2048x2048.size a
  hwx0_4 : ∀ i : grid0.Coords, EltTy.bits .f32 = 32 ∨ (Rect.block (s := S2048x2048) S128x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8x2048.size a ≤ S4x3x2048x2048.size a
  hwx0_5 : ∀ i : grid0.Coords, EltTy.bits .f32 = 32 ∨ (Rect.block (s := S4x3x2048x2048) S1x1x8x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x8x2048.size a ≤ S4x3x2048x2048.size a
  hwx0_6 : ∀ i : grid0.Coords, EltTy.bits .f32 = 32 ∨ (Rect.block (s := S4x3x2048x2048) S1x1x8x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x3x128x2048.size a ≤ S4x3x2048x2048.size a
  hwx0_7 : ∀ i : grid0.Coords, EltTy.bits .f32 = 32 ∨ (Rect.block (s := S4x3x2048x2048) S1x3x128x2048.size (cc0_transform_7 i) (hinb0_7 i)).WholeWords (EltTy.packing .f32)

variable [Facts₀]

abbrev win0_0 : Pipeline.Window sig grid0 :=
  Pipeline.Window.ofSpec (Memref.whole main_arg0) S1x1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S1x1x8x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S1x1x8x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x3x128x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x3x2048x2048 : Shape := ⟨4, ![4, 3, 2048, 2048]⟩
abbrev S4x1x2048x2048 : Shape := ⟨4, ![4, 1, 2048, 2048]⟩
abbrev S2048x2048 : Shape := ⟨2, ![2048, 2048]⟩
abbrev S_ : Shape := ⟨0, ![]⟩
abbrev S4x1x1x2048 : Shape := ⟨4, ![4, 1, 1, 2048]⟩
abbrev S4x1x2047x2048 : Shape := ⟨4, ![4, 1, 2047, 2048]⟩
abbrev S4x1x2048x1 : Shape := ⟨4, ![4, 1, 2048, 1]⟩
abbrev S4x1x2048x2047 : Shape := ⟨4, ![4, 1, 2048, 2047]⟩
abbrev S1x1x2048x2048 : Shape := ⟨4, ![1, 1, 2048, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x3x2048x2048, .f32⟩
  | .hbm, ⟨1, _⟩ => ⟨S4x1x2048x2048, .f32⟩
  | .hbm, ⟨2, _⟩ => ⟨S2048x2048, .f32⟩
  | .hbm, ⟨3, _⟩ => ⟨S4x1x2048x2048, .f32⟩
  | .hbm, ⟨4, _⟩ => ⟨S4x1x2048x2048, .f32⟩
  | .hbm, ⟨5, _⟩ => ⟨S4x1x2048x2048, .f32⟩
  | .hbm, ⟨6, _⟩ => ⟨S_, .f32⟩
  | .hbm, ⟨7, _⟩ => ⟨S4x1x2048x2048, .f32⟩
  | .hbm, ⟨8, _⟩ => ⟨S4x1x1x2048, .f32⟩
  | .hbm, ⟨9, _⟩ => ⟨S4x1x2047x2048, .f32⟩
  | .hbm, ⟨10, _⟩ => ⟨S4x1x2048x2048, .f32⟩
  | .hbm, ⟨11, _⟩ => ⟨S4x1x2048x2048, .f32⟩
  | .hbm, ⟨12, _⟩ => ⟨S4x1x2047x2048, .f32⟩
  | .hbm, ⟨13, _⟩ => ⟨S4x1x1x2048, .f32⟩
  | .hbm, ⟨14, _⟩ => ⟨S4x1x2048x2048, .f32⟩
  | .hbm, ⟨15, _⟩ => ⟨S4x1x2048x2048, .f32⟩
  | .hbm, ⟨16, _⟩ => ⟨S4x1x2048x1, .f32⟩
  | .hbm, ⟨17, _⟩ => ⟨S4x1x2048x2047, .f32⟩
  | .hbm, ⟨18, _⟩ => ⟨S4x1x2048x2048, .f32⟩
  | .hbm, ⟨19, _⟩ => ⟨S4x1x2048x2048, .f32⟩
  | .hbm, ⟨20, _⟩ => ⟨S4x1x2048x2047, .f32⟩
  | .hbm, ⟨21, _⟩ => ⟨S4x1x2048x1, .f32⟩
  | .hbm, ⟨22, _⟩ => ⟨S4x1x2048x2048, .f32⟩
  | .hbm, ⟨23, _⟩ => ⟨S4x1x2048x2048, .f32⟩
  | .hbm, ⟨24, _⟩ => ⟨S_, .f32⟩
  | .hbm, ⟨25, _⟩ => ⟨S4x1x2048x2048, .f32⟩
  | .hbm, ⟨26, _⟩ => ⟨S4x1x2048x2048, .f32⟩
  | .hbm, ⟨27, _⟩ => ⟨S4x1x2048x2048, .f32⟩
  | .hbm, ⟨28, _⟩ => ⟨S_, .f32⟩
  | .hbm, ⟨29, _⟩ => ⟨S4x1x2048x2048, .f32⟩
  | .hbm, ⟨30, _⟩ => ⟨S4x1x2048x2048, .i1⟩
  | .hbm, ⟨31, _⟩ => ⟨S_, .f32⟩
  | .hbm, ⟨32, _⟩ => ⟨S4x1x2048x2048, .f32⟩
  | .hbm, ⟨33, _⟩ => ⟨S4x1x2048x2048, .f32⟩
  | .hbm, ⟨34, _⟩ => ⟨S4x1x2048x2048, .f32⟩
  | .hbm, ⟨35, _⟩ => ⟨S4x1x2048x2048, .f32⟩
  | .hbm, ⟨36, _⟩ => ⟨S4x1x2048x2048, .f32⟩
  | .hbm, ⟨37, _⟩ => ⟨S_, .f32⟩
  | .hbm, ⟨38, _⟩ => ⟨S2048x2048, .f32⟩
  | .hbm, ⟨39, _⟩ => ⟨S2048x2048, .i1⟩
  | .hbm, ⟨40, _⟩ => ⟨S1x1x2048x2048, .i1⟩
  | .hbm, ⟨41, _⟩ => ⟨S4x1x2048x2048, .i1⟩
  | .hbm, ⟨42, _⟩ => ⟨S4x1x2048x2048, .i1⟩
  | .hbm, ⟨43, _⟩ => ⟨S4x1x2048x2048, .i1⟩
  | .hbm, ⟨44, _⟩ => ⟨S4x1x2048x2048, .f32⟩
  | .hbm, ⟨45, _⟩ => ⟨S_, .f32⟩
  | .hbm, ⟨46, _⟩ => ⟨S4x1x2048x2048, .f32⟩
  | .hbm, ⟨47, _⟩ => ⟨S4x1x2048x2048, .f32⟩
  | .hbm, ⟨48, _⟩ => ⟨S_, .f32⟩
  | .hbm, ⟨49, _⟩ => ⟨S4x1x2048x2048, .f32⟩
  | .hbm, ⟨50, _⟩ => ⟨S4x1x2048x2048, .f32⟩
  | .hbm, ⟨51, _⟩ => ⟨S_, .f32⟩
  | .hbm, ⟨52, _⟩ => ⟨S4x1x2048x2048, .f32⟩
  | .hbm, ⟨53, _⟩ => ⟨S4x1x2048x2048, .f32⟩
  | .hbm, ⟨54, _⟩ => ⟨S_, .f32⟩
  | .hbm, ⟨55, _⟩ => ⟨S4x1x2048x2048, .f32⟩
  | .hbm, ⟨56, _⟩ => ⟨S4x1x2048x2048, .f32⟩
  | .hbm, ⟨57, _⟩ => ⟨S4x1x2048x2048, .f32⟩
  | .hbm, ⟨58, _⟩ => ⟨S4x1x2048x2048, .f32⟩
  | .hbm, ⟨59, _⟩ => ⟨S4x3x2048x2048, .f32⟩
  | _, _ => ⟨S4x3x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_call1_v0 : Ref sig .tc := ⟨.hbm, 12, rfl⟩
abbrev main_call1_v1 : Ref sig .tc := ⟨.hbm, 13, rfl⟩
abbrev main_v6 : Ref sig .tc := ⟨.hbm, 14, rfl⟩
abbrev main_v7 : Ref sig .tc := ⟨.hbm, 15, rfl⟩
abbrev main_call2_v0 : Ref sig .tc := ⟨.hbm, 16, rfl⟩
abbrev main_call2_v1 : Ref sig .tc := ⟨.hbm, 17, rfl⟩
abbrev main_v8 : Ref sig .tc := ⟨.hbm, 18, rfl⟩
abbrev main_v9 : Ref sig .tc := ⟨.hbm, 19, rfl⟩
abbrev main_call3_v0 : Ref sig .tc := ⟨.hbm, 20, rfl⟩
abbrev main_call3_v1 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  slices_S4x3x2048x2048_S4x1x2048x2048_0_0_0_0 : S4x3x2048x2048.Slices ![0, 0, 0, 0] S4x1x2048x2048
  slices_S4x3x2048x2048_S4x1x2048x2048_0_1_0_0 : S4x3x2048x2048.Slices ![0, 1, 0, 0] S4x1x2048x2048
  slices_S4x3x2048x2048_S4x1x2048x2048_0_2_0_0 : S4x3x2048x2048.Slices ![0, 2, 0, 0] S4x1x2048x2048
  bcast_S_S4x1x2048x2048 : S_.BroadcastsInDim S4x1x2048x2048 (![] : Fin 0 → Fin S4x1x2048x2048.rank)
  slices_S4x1x2048x2048_S4x1x1x2048_0_0_2047_0 : S4x1x2048x2048.Slices ![0, 0, 2047, 0] S4x1x1x2048
  slices_S4x1x2048x2048_S4x1x2047x2048_0_0_0_0 : S4x1x2048x2048.Slices ![0, 0, 0, 0] S4x1x2047x2048
  concatenates_S4x1x1x2048_S4x1x2047x2048_S4x1x2048x2048_d2 : Shape.Concatenates [S4x1x1x2048, S4x1x2047x2048] S4x1x2048x2048 2
  slices_S4x1x2048x2048_S4x1x2047x2048_0_0_1_0 : S4x1x2048x2048.Slices ![0, 0, 1, 0] S4x1x2047x2048
  slices_S4x1x2048x2048_S4x1x1x2048_0_0_0_0 : S4x1x2048x2048.Slices ![0, 0, 0, 0] S4x1x1x2048
  concatenates_S4x1x2047x2048_S4x1x1x2048_S4x1x2048x2048_d2 : Shape.Concatenates [S4x1x2047x2048, S4x1x1x2048] S4x1x2048x2048 2
  slices_S4x1x2048x2048_S4x1x2048x1_0_0_0_2047 : S4x1x2048x2048.Slices ![0, 0, 0, 2047] S4x1x2048x1
  slices_S4x1x2048x2048_S4x1x2048x2047_0_0_0_0 : S4x1x2048x2048.Slices ![0, 0, 0, 0] S4x1x2048x2047
  concatenates_S4x1x2048x1_S4x1x2048x2047_S4x1x2048x2048_d3 : Shape.Concatenates [S4x1x2048x1, S4x1x2048x2047] S4x1x2048x2048 3
  slices_S4x1x2048x2048_S4x1x2048x2047_0_0_0_1 : S4x1x2048x2048.Slices ![0, 0, 0, 1] S4x1x2048x2047
  slices_S4x1x2048x2048_S4x1x2048x1_0_0_0_0 : S4x1x2048x2048.Slices ![0, 0, 0, 0] S4x1x2048x1
  concatenates_S4x1x2048x2047_S4x1x2048x1_S4x1x2048x2048_d3 : Shape.Concatenates [S4x1x2048x2047, S4x1x2048x1] S4x1x2048x2048 3
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x1x2048x2048_0_1_2_3 : S1x1x2048x2048.BroadcastsInDim S4x1x2048x2048 (![0, 1, 2, 3] : Fin 4 → Fin S4x1x2048x2048.rank)
  concatenates_S4x1x2048x2048_S4x1x2048x2048_S4x1x2048x2048_S4x3x2048x2048_d1 : Shape.Concatenates [S4x1x2048x2048, S4x1x2048x2048, S4x1x2048x2048] S4x3x2048x2048 1

variable [Facts₀]

class Facts : Prop extends Facts₀ where

variable [Facts]
-- ==== Proof.BitsBody.lean ====
/-
  One point of the lattice sweep, read as a function of the blocks the point is handed.

  The grid has 16 x 4 points; a point (h, b) is handed seven blocks: rows 128h .. 128h+127 of batch b of the
  spin plane, of the trace plane, of the inverse-temperature plane and of the uniform draws; the same rows of the
  shared keep mask's draws; and the two eight-row strips of the spin plane that end just above row 128h and
  begin just below row 128h+127, taken cyclically in the row index.  It writes one block of three planes:
  the updated spins, the updated trace, the inverse temperature copied.

  This module names what the point leaves in the three-plane block as the three stored planes laid over one
  another (they tile the block), and shows that running the point's text on any staging buffers leaves
  exactly that, the seven input buffers untouched.
-/
import proofs.«100500_j47450798686483_2_alg».proof.Proof.Gen.Kernel.Launch
import proofs.«100500_j47450798686483_2_alg».proof.Proof.Gen.Kernel.Skeleton
import proofs.«100500_j47450798686483_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the point reads and writes through -/

/-- A whole 128-row block of one plane. -/
abbrev rPlane : Rect S1x1x128x2048 := Rect.unit (s := S1x1x128x2048) ![0, 0, 0, 0] S1x1x128x2048.size inb_S1x1x128x2048_S1x1x128x2048_0_0_0_0
/-- The whole 128-row block of the keep mask's draws. -/
abbrev rMask : Rect S128x2048 := Rect.unit (s := S128x2048) ![0, 0] S128x2048.size inb_S128x2048_S128x2048_0_0
/-- The last row of the strip above. -/
abbrev rAbove : Rect S1x1x8x2048 := Rect.unit (s := S1x1x8x2048) ![0, 0, 7, 0] S1x1x1x2048.size inb_S1x1x8x2048_S1x1x1x2048_0_0_7_0
/-- The first row of the strip below. -/
abbrev rBelow : Rect S1x1x8x2048 := Rect.unit (s := S1x1x8x2048) ![0, 0, 0, 0] S1x1x1x2048.size inb_S1x1x8x2048_S1x1x1x2048_0_0_0_0
/-- The three planes of the written block. -/
abbrev rOut0 : Rect S1x3x128x2048 := Rect.unit (s := S1x3x128x2048) ![0, 0, 0, 0] S1x1x128x2048.size inb_S1x3x128x2048_S1x1x128x2048_0_0_0_0
abbrev rOut1 : Rect S1x3x128x2048 := Rect.unit (s := S1x3x128x2048) ![0, 1, 0, 0] S1x1x128x2048.size inb_S1x3x128x2048_S1x1x128x2048_0_1_0_0
abbrev rOut2 : Rect S1x3x128x2048 := Rect.unit (s := S1x3x128x2048) ![0, 2, 0, 0] S1x1x128x2048.size inb_S1x3x128x2048_S1x1x128x2048_0_2_0_0

/-! ## What the point leaves in the written block -/

/-- The written block as a function of the seven blocks read: plane 2 the inverse temperature, plane 1 the new
    trace, plane 0 the new spins (listed last store first). -/
def outBlock (xs xt xb xr : Vec F S1x1x128x2048 .f32) (xm : Vec F S128x2048 .f32) (xu xd : Vec F S1x1x8x2048 .f32) :
    Vec F S1x3x128x2048 .f32 :=
  View.canon [⟨rOut2, k0_pay3 (k0_pay6 (View.ld xb rPlane))⟩,
    ⟨rOut1, k0_pay2 (k0_pay4 (View.ld xs rPlane)) (k0_pay5 (View.ld xt rPlane))⟩,
    ⟨rOut0, k0_pay1 (k0_pay4 (View.ld xs rPlane)) (k0_pay6 (View.ld xb rPlane)) (k0_pay7 (View.ld xr rPlane)) (View.ld xm rMask)
      (k0_pay8 (View.ld xs rPlane) (View.ld xu rAbove) (View.ld xd rBelow))
      (k0_pay9 (View.ld xs rPlane) (View.ld xu rAbove) (View.ld xd rBelow)) (Scalar.ofBits .f32 0x3F800000#32)⟩]

/-- The three planes tile the block, so every index of it lies in one of them. -/
theorem outCover (p2 p1 p0 : Vec F S1x1x128x2048 .f32) (y : S1x3x128x2048.Idx) :
    ∃ pc ∈ ([⟨rOut2, p2⟩, ⟨rOut1, p1⟩, ⟨rOut0, p0⟩] : List (View.Piece (Elt F) S1x3x128x2048 .f32)), y ∈ pc.1.set :=
  View.cover_of_tiled [⟨rOut2, p2⟩, ⟨rOut1, p1⟩, ⟨rOut0, p0⟩] S1x1x128x2048.size (by rfl) y

/-! ## Running the point's text -/

set_option maxHeartbeats 1000000 in
/-- On whole staging buffers holding the seven blocks (and anything in the eighth), the point's text runs to its
    end, leaves the seven as they were and the eighth at `outBlock` of them. -/
theorem sound_kernel (c : Dev nD) (E : Set ℕ) (i : grid0.Coords)
    (arg2 : Memref sig .tc .vmem S1x1x128x2048 .f32) (harg2 : arg2.IsWhole) (arg3 : Memref sig .tc .vmem S1x1x128x2048 .f32) (harg3 : arg3.IsWhole)
    (arg4 : Memref sig .tc .vmem S1x1x128x2048 .f32) (harg4 : arg4.IsWhole) (arg5 : Memref sig .tc .vmem S1x1x128x2048 .f32) (harg5 : arg5.IsWhole)
    (arg6 : Memref sig .tc .vmem S128x2048 .f32) (harg6 : arg6.IsWhole) (arg7 : Memref sig .tc .vmem S1x1x8x2048 .f32) (harg7 : arg7.IsWhole)
    (arg8 : Memref sig .tc .vmem S1x1x8x2048 .f32) (harg8 : arg8.IsWhole) (arg9 : Memref sig .tc .vmem S1x3x128x2048 .f32) (harg9 : arg9.IsWhole)
    (xs xt xb xr : Vec F S1x1x128x2048 .f32) (xm : Vec F S128x2048 .f32) (xu xd : Vec F S1x1x8x2048 .f32) (K : PUnit → sProp 𝕄) :
    iprop(owns (c : Thread nD τ) arg2 fullShare xs ∗ owns (c : Thread nD τ) arg3 fullShare xt ∗ owns (c : Thread nD τ) arg4 fullShare xb
        ∗ owns (c : Thread nD τ) arg5 fullShare xr ∗ owns (c : Thread nD τ) arg6 fullShare xm ∗ owns (c : Thread nD τ) arg7 fullShare xu
        ∗ owns (c : Thread nD τ) arg8 fullShare xd ∗ (∃ d, owns (c : Thread nD τ) arg9 fullShare d)
        ∗ (iprop(owns (c : Thread nD τ) arg2 fullShare xs ∗ owns (c : Thread nD τ) arg3 fullShare xt ∗ owns (c : Thread nD τ) arg4 fullShare xb
            ∗ owns (c : Thread nD τ) arg5 fullShare xr ∗ owns (c : Thread nD τ) arg6 fullShare xm ∗ owns (c : Thread nD τ) arg7 fullShare xu
            ∗ owns (c : Thread nD τ) arg8 fullShare xd ∗ owns (c : Thread nD τ) arg9 fullShare (outBlock xs xt xb xr xm xu xd)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (outCover _ _ _)

end Cert.Kernel.Sweep

end
-- ==== Proof.BitsRun.lean ====
/-
  The whole sweep: the 64 points run one after another, each on the blocks of its point.

  Five of the seven blocks a point is handed are cut from one array (the three planes and the two cyclic
  strips of spins), so that array is lent to five readers at once; the array is split into five read
  shares for the duration of the sweep and is never written.  The three-plane result is written block by
  block, each point's block at the index (batch b, rows 128h ..).  This module states, for every core, what
  each array holds when the sweep ends: the three argument arrays what they held, the result what the
  write-backs left.
-/
import proofs.«100500_j47450798686483_2_alg».proof.Proof.BitsBody
import Idealize.ShloMosaic.Lib.Pipeline.Kit

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the sweep starts, and the blocks cut from them -/

/-- A core's arrays when the sweep starts: as launched. -/
abbrev V (c : Dev nD) (b : Ref sig .tc) : Buf (Elt F) ((c : Thread nD τ).loc b) := m ((c : Thread nD τ).loc b)

/-- The block of its array that reader `w` is handed at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The five read shares of the shared array -/

abbrev sh0 : PosShare TreeShare := fullShare.left
abbrev sh1 : PosShare TreeShare := fullShare.right.left
abbrev sh2 : PosShare TreeShare := fullShare.right.right.left
abbrev sh5 : PosShare TreeShare := fullShare.right.right.right.left
abbrev sh6 : PosShare TreeShare := fullShare.right.right.right.right

/-! ## What each staging buffer holds after each point -/

/-- After a point each reader's buffer still holds its block and the written buffer holds `outBlock` of the seven
    blocks; nothing else is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := iprop(emp)
  q w := match w with
    | ⟨0, _⟩ => sh0
    | ⟨1, _⟩ => sh1
    | ⟨2, _⟩ => sh2
    | ⟨3, _⟩ => fullShare
    | ⟨4, _⟩ => fullShare
    | ⟨5, _⟩ => sh5
    | ⟨6, _⟩ => sh6
    | ⟨7, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by
  dsimp only [dats]

/-- A reader's buffer holds its block at every point, whether or not the block was moved in at that point (a block
    not moved in is the block of the point before, whose index is the same). -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)

/-! ## One point, as the sweep calls it -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The shared array dealt among its five readers -/

/-- Four conjuncts listed are the four conjoined. -/
theorem bigSepL_four {M : Type} [URA M] {I : Type} (Φ : I → sProp M) (a b c d : I) :
    BI.bigSepL [a, b, c, d] Φ = iprop(Φ a ∗ Φ b ∗ Φ c ∗ Φ d) := rfl

theorem deal (c : Dev nD) :
    (Pipeline.arrBufs spec0 c (V m c) : sProp 𝕄) ⊢ (dats m 0 c).arrays ((dats m 0 c).arrAt · 0) := by
  unfold Pipeline.arrBufs Dat.arrays
  rw [bigSep_W0, bigSep_eq_bigSepL_of_eq [main_arg0, main_arg1, main_arg2, main_v0] (by decide) (by decide)]
  rw [bigSepL_four]
  simp only [View.set_whole]
  have halve (q : PosShare TreeShare) :
      (((c.tc : Thread nD τ).loc main_arg0) ↦{q} V m c main_arg0 : sProp 𝕄)
        ⊢ iprop((((c.tc : Thread nD τ).loc main_arg0) ↦{q.left} V m c main_arg0) ∗ (((c.tc : Thread nD τ).loc main_arg0) ↦{q.right} V m c main_arg0)) :=
    (pointsTo_share (PosShare.mem_left_op_right q)).1
  iintro ⟨H0, H1, H2, H3⟩
  ihave H0' := halve fullShare $$ H0
  icases H0' with ⟨Ha, Hr⟩
  ihave Hr1 := halve fullShare.right $$ Hr
  icases Hr1 with ⟨Hb, Hr⟩
  ihave Hr2 := halve fullShare.right.right $$ Hr
  icases Hr2 with ⟨Hc, Hr⟩
  ihave Hr3 := halve fullShare.right.right.right $$ Hr
  icases Hr3 with ⟨Hd, He⟩
  isplitl [Ha]; · iexact Ha
  isplitl [Hb]; · iexact Hb
  isplitl [Hc]; · iexact Hc
  isplitl [H1]; · iexact H1
  isplitl [H2]; · iexact H2
  isplitl [Hd]; · iexact Hd
  isplitl [He]; · iexact He
  iexact H3

/-! ## The sweep run -/

/-- The ghost state the sweep starts from: every staging cell's owner at round 0 and a token for every block move. -/
def u₀ : UR sig nD τ := initOf (Pipeline.cells cfgs cellOf_inj) (Pipeline.launchToks cfgs cellOf_inj)

/-- When the sweep ends every array holds what the write-backs left of it. -/
def SweepPost (r : PUnit × MemSt nD τ sig (Elt F)) : Prop :=
  ∀ (c : Dev nD) (w : Fin cfg0.W), r.2.mem ((cfg0.win w).arr.view.loc (c : Thread nD τ)) = (dats m 0 c).arrAt w cfg0.N

set_option backward.isDefEq.respectTransparency.types false in
/-- From any memory with every counter at zero, every fair execution of the sweep ends, nothing faulting, in a
    state where every array holds what the write-backs left of it. -/
theorem run_main : θ_run defs (onTc (τ := τ) (main (F := F))) ⟨m, fun _ => 0, ρ⟩ (SweepPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := Pipeline.hmain_region cfgs 0 defs₀ Variants.none m main fun c => (main_chain c).trans rfl)
    (hsplit := deal m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The three argument arrays are only read: they end as they started. -/
theorem kept_arg0 (c : Dev nD) : (dats m 0 c).arrAt 0 cfg0.N = m ((c : Thread nD τ).loc main_arg0) :=
  ((dats m 0 c).arrAt_in 0 rfl _).trans (A_eq m c 0)
theorem kept_arg1 (c : Dev nD) : (dats m 0 c).arrAt 3 cfg0.N = m ((c : Thread nD τ).loc main_arg1) :=
  ((dats m 0 c).arrAt_in 3 rfl _).trans (A_eq m c 3)
theorem kept_arg2 (c : Dev nD) : (dats m 0 c).arrAt 4 cfg0.N = m ((c : Thread nD τ).loc main_arg2) :=
  ((dats m 0 c).arrAt_in 4 rfl _).trans (A_eq m c 4)

/-- The sweep runs to its end and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (kept_arg0 m c), (h c 3).trans (kept_arg1 m c), (h c 4).trans (kept_arg2 m c)⟩)
    (run_main m ρ)

end Cert.Kernel.Sweep

end
-- ==== Proof.IdealBody.lean ====
/-
  One point of the lattice sweep, read as a function of the blocks the point is handed.

  The grid has 16 x 4 points; a point (h, b) is handed seven blocks: rows 128h .. 128h+127 of batch b of the
  spin plane, of the trace plane, of the inverse-temperature plane and of the uniform draws; the same rows of the
  shared keep mask's draws; and the two eight-row strips of the spin plane that end just above row 128h and
  begin just below row 128h+127, taken cyclically in the row index.  It writes one block of three planes:
  the updated spins, the updated trace, the inverse temperature copied.

  This module names what the point leaves in the three-plane block as the three stored planes laid over one
  another (they tile the block), and shows that running the point's text on any staging buffers leaves
  exactly that, the seven input buffers untouched.
-/
import proofs.«100500_j47450798686483_2_alg».proof.Proof.Gen.KernelIdeal.Launch
import proofs.«100500_j47450798686483_2_alg».proof.Proof.Gen.KernelIdeal.Skeleton
import proofs.«100500_j47450798686483_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the point reads and writes through -/

/-- A whole 128-row block of one plane. -/
abbrev rPlane : Rect S1x1x128x2048 := Rect.unit (s := S1x1x128x2048) ![0, 0, 0, 0] S1x1x128x2048.size inb_S1x1x128x2048_S1x1x128x2048_0_0_0_0
/-- The whole 128-row block of the keep mask's draws. -/
abbrev rMask : Rect S128x2048 := Rect.unit (s := S128x2048) ![0, 0] S128x2048.size inb_S128x2048_S128x2048_0_0
/-- The last row of the strip above. -/
abbrev rAbove : Rect S1x1x8x2048 := Rect.unit (s := S1x1x8x2048) ![0, 0, 7, 0] S1x1x1x2048.size inb_S1x1x8x2048_S1x1x1x2048_0_0_7_0
/-- The first row of the strip below. -/
abbrev rBelow : Rect S1x1x8x2048 := Rect.unit (s := S1x1x8x2048) ![0, 0, 0, 0] S1x1x1x2048.size inb_S1x1x8x2048_S1x1x1x2048_0_0_0_0
/-- The three planes of the written block. -/
abbrev rOut0 : Rect S1x3x128x2048 := Rect.unit (s := S1x3x128x2048) ![0, 0, 0, 0] S1x1x128x2048.size inb_S1x3x128x2048_S1x1x128x2048_0_0_0_0
abbrev rOut1 : Rect S1x3x128x2048 := Rect.unit (s := S1x3x128x2048) ![0, 1, 0, 0] S1x1x128x2048.size inb_S1x3x128x2048_S1x1x128x2048_0_1_0_0
abbrev rOut2 : Rect S1x3x128x2048 := Rect.unit (s := S1x3x128x2048) ![0, 2, 0, 0] S1x1x128x2048.size inb_S1x3x128x2048_S1x1x128x2048_0_2_0_0

/-! ## What the point leaves in the written block -/

/-- The written block as a function of the seven blocks read: plane 2 the inverse temperature, plane 1 the new
    trace, plane 0 the new spins (listed last store first). -/
def outBlock (xs xt xb xr : Vec F S1x1x128x2048 .f32) (xm : Vec F S128x2048 .f32) (xu xd : Vec F S1x1x8x2048 .f32) :
    Vec F S1x3x128x2048 .f32 :=
  View.canon [⟨rOut2, k0_pay3 (k0_pay6 (View.ld xb rPlane))⟩,
    ⟨rOut1, k0_pay2 (k0_pay4 (View.ld xs rPlane)) (k0_pay5 (View.ld xt rPlane))⟩,
    ⟨rOut0, k0_pay1 (k0_pay4 (View.ld xs rPlane)) (k0_pay6 (View.ld xb rPlane)) (k0_pay7 (View.ld xr rPlane)) (View.ld xm rMask)
      (k0_pay8 (View.ld xs rPlane) (View.ld xu rAbove) (View.ld xd rBelow))
      (k0_pay9 (View.ld xs rPlane) (View.ld xu rAbove) (View.ld xd rBelow)) (Scalar.ofBits .f32 0x3F800000#32)⟩]

/-- The three planes tile the block, so every index of it lies in one of them. -/
theorem outCover (p2 p1 p0 : Vec F S1x1x128x2048 .f32) (y : S1x3x128x2048.Idx) :
    ∃ pc ∈ ([⟨rOut2, p2⟩, ⟨rOut1, p1⟩, ⟨rOut0, p0⟩] : List (View.Piece (Elt F) S1x3x128x2048 .f32)), y ∈ pc.1.set :=
  View.cover_of_tiled [⟨rOut2, p2⟩, ⟨rOut1, p1⟩, ⟨rOut0, p0⟩] S1x1x128x2048.size (by rfl) y

/-! ## Running the point's text -/

set_option maxHeartbeats 1000000 in
/-- On whole staging buffers holding the seven blocks (and anything in the eighth), the point's text runs to its
    end, leaves the seven as they were and the eighth at `outBlock` of them. -/
theorem sound_kernel (c : Dev nD) (E : Set ℕ) (i : grid0.Coords)
    (arg2 : Memref sig .tc .vmem S1x1x128x2048 .f32) (harg2 : arg2.IsWhole) (arg3 : Memref sig .tc .vmem S1x1x128x2048 .f32) (harg3 : arg3.IsWhole)
    (arg4 : Memref sig .tc .vmem S1x1x128x2048 .f32) (harg4 : arg4.IsWhole) (arg5 : Memref sig .tc .vmem S1x1x128x2048 .f32) (harg5 : arg5.IsWhole)
    (arg6 : Memref sig .tc .vmem S128x2048 .f32) (harg6 : arg6.IsWhole) (arg7 : Memref sig .tc .vmem S1x1x8x2048 .f32) (harg7 : arg7.IsWhole)
    (arg8 : Memref sig .tc .vmem S1x1x8x2048 .f32) (harg8 : arg8.IsWhole) (arg9 : Memref sig .tc .vmem S1x3x128x2048 .f32) (harg9 : arg9.IsWhole)
    (xs xt xb xr : Vec F S1x1x128x2048 .f32) (xm : Vec F S128x2048 .f32) (xu xd : Vec F S1x1x8x2048 .f32) (K : PUnit → sProp 𝕄) :
    iprop(owns (c : Thread nD τ) arg2 fullShare xs ∗ owns (c : Thread nD τ) arg3 fullShare xt ∗ owns (c : Thread nD τ) arg4 fullShare xb
        ∗ owns (c : Thread nD τ) arg5 fullShare xr ∗ owns (c : Thread nD τ) arg6 fullShare xm ∗ owns (c : Thread nD τ) arg7 fullShare xu
        ∗ owns (c : Thread nD τ) arg8 fullShare xd ∗ (∃ d, owns (c : Thread nD τ) arg9 fullShare d)
        ∗ (iprop(owns (c : Thread nD τ) arg2 fullShare xs ∗ owns (c : Thread nD τ) arg3 fullShare xt ∗ owns (c : Thread nD τ) arg4 fullShare xb
            ∗ owns (c : Thread nD τ) arg5 fullShare xr ∗ owns (c : Thread nD τ) arg6 fullShare xm ∗ owns (c : Thread nD τ) arg7 fullShare xu
            ∗ owns (c : Thread nD τ) arg8 fullShare xd ∗ owns (c : Thread nD τ) arg9 fullShare (outBlock xs xt xb xr xm xu xd)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (outCover _ _ _)

end Cert.KernelIdeal.Sweep

end
-- ==== Proof.IdealRun.lean ====
/-
  The whole sweep: the 64 points run one after another, each on the blocks of its point.

  Five of the seven blocks a point is handed are cut from one array (the three planes and the two cyclic
  strips of spins), so that array is lent to five readers at once; the array is split into five read
  shares for the duration of the sweep and is never written.  The three-plane result is written block by
  block, each point's block at the index (batch b, rows 128h ..).  This module states, for every core, what
  each array holds when the sweep ends: the three argument arrays what they held, the result what the
  write-backs left.
-/
import proofs.«100500_j47450798686483_2_alg».proof.Proof.IdealBody
import Idealize.ShloMosaic.Lib.Pipeline.Kit

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the sweep starts, and the blocks cut from them -/

/-- A core's arrays when the sweep starts: as launched. -/
abbrev V (c : Dev nD) (b : Ref sig .tc) : Buf (Elt F) ((c : Thread nD τ).loc b) := m ((c : Thread nD τ).loc b)

/-- The block of its array that reader `w` is handed at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The five read shares of the shared array -/

abbrev sh0 : PosShare TreeShare := fullShare.left
abbrev sh1 : PosShare TreeShare := fullShare.right.left
abbrev sh2 : PosShare TreeShare := fullShare.right.right.left
abbrev sh5 : PosShare TreeShare := fullShare.right.right.right.left
abbrev sh6 : PosShare TreeShare := fullShare.right.right.right.right

/-! ## What each staging buffer holds after each point -/

/-- After a point each reader's buffer still holds its block and the written buffer holds `outBlock` of the seven
    blocks; nothing else is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := iprop(emp)
  q w := match w with
    | ⟨0, _⟩ => sh0
    | ⟨1, _⟩ => sh1
    | ⟨2, _⟩ => sh2
    | ⟨3, _⟩ => fullShare
    | ⟨4, _⟩ => fullShare
    | ⟨5, _⟩ => sh5
    | ⟨6, _⟩ => sh6
    | ⟨7, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by
  dsimp only [dats]

/-- A reader's buffer holds its block at every point, whether or not the block was moved in at that point (a block
    not moved in is the block of the point before, whose index is the same). -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)

/-! ## One point, as the sweep calls it -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The shared array dealt among its five readers -/

/-- Four conjuncts listed are the four conjoined. -/
theorem bigSepL_four {M : Type} [URA M] {I : Type} (Φ : I → sProp M) (a b c d : I) :
    BI.bigSepL [a, b, c, d] Φ = iprop(Φ a ∗ Φ b ∗ Φ c ∗ Φ d) := rfl

theorem deal (c : Dev nD) :
    (Pipeline.arrBufs spec0 c (V m c) : sProp 𝕄) ⊢ (dats m 0 c).arrays ((dats m 0 c).arrAt · 0) := by
  unfold Pipeline.arrBufs Dat.arrays
  rw [bigSep_W0, bigSep_eq_bigSepL_of_eq [main_arg0, main_arg1, main_arg2, main_v0] (by decide) (by decide)]
  rw [bigSepL_four]
  simp only [View.set_whole]
  have halve (q : PosShare TreeShare) :
      (((c.tc : Thread nD τ).loc main_arg0) ↦{q} V m c main_arg0 : sProp 𝕄)
        ⊢ iprop((((c.tc : Thread nD τ).loc main_arg0) ↦{q.left} V m c main_arg0) ∗ (((c.tc : Thread nD τ).loc main_arg0) ↦{q.right} V m c main_arg0)) :=
    (pointsTo_share (PosShare.mem_left_op_right q)).1
  iintro ⟨H0, H1, H2, H3⟩
  ihave H0' := halve fullShare $$ H0
  icases H0' with ⟨Ha, Hr⟩
  ihave Hr1 := halve fullShare.right $$ Hr
  icases Hr1 with ⟨Hb, Hr⟩
  ihave Hr2 := halve fullShare.right.right $$ Hr
  icases Hr2 with ⟨Hc, Hr⟩
  ihave Hr3 := halve fullShare.right.right.right $$ Hr
  icases Hr3 with ⟨Hd, He⟩
  isplitl [Ha]; · iexact Ha
  isplitl [Hb]; · iexact Hb
  isplitl [Hc]; · iexact Hc
  isplitl [H1]; · iexact H1
  isplitl [H2]; · iexact H2
  isplitl [Hd]; · iexact Hd
  isplitl [He]; · iexact He
  iexact H3

/-! ## The sweep run -/

/-- The ghost state the sweep starts from: every staging cell's owner at round 0 and a token for every block move. -/
def u₀ : UR sig nD τ := initOf (Pipeline.cells cfgs cellOf_inj) (Pipeline.launchToks cfgs cellOf_inj)

/-- When the sweep ends every array holds what the write-backs left of it. -/
def SweepPost (r : PUnit × MemSt nD τ sig (Elt F)) : Prop :=
  ∀ (c : Dev nD) (w : Fin cfg0.W), r.2.mem ((cfg0.win w).arr.view.loc (c : Thread nD τ)) = (dats m 0 c).arrAt w cfg0.N

set_option backward.isDefEq.respectTransparency.types false in
/-- From any memory with every counter at zero, every fair execution of the sweep ends, nothing faulting, in a
    state where every array holds what the write-backs left of it. -/
theorem run_main : θ_run defs (onTc (τ := τ) (main (F := F))) ⟨m, fun _ => 0, ρ⟩ (SweepPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := Pipeline.hmain_region cfgs 0 defs₀ Variants.none m main fun c => (main_chain c).trans rfl)
    (hsplit := deal m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The three argument arrays are only read: they end as they started. -/
theorem kept_arg0 (c : Dev nD) : (dats m 0 c).arrAt 0 cfg0.N = m ((c : Thread nD τ).loc main_arg0) :=
  ((dats m 0 c).arrAt_in 0 rfl _).trans (A_eq m c 0)
theorem kept_arg1 (c : Dev nD) : (dats m 0 c).arrAt 3 cfg0.N = m ((c : Thread nD τ).loc main_arg1) :=
  ((dats m 0 c).arrAt_in 3 rfl _).trans (A_eq m c 3)
theorem kept_arg2 (c : Dev nD) : (dats m 0 c).arrAt 4 cfg0.N = m ((c : Thread nD τ).loc main_arg2) :=
  ((dats m 0 c).arrAt_in 4 rfl _).trans (A_eq m c 4)

/-- The sweep runs to its end and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (kept_arg0 m c), (h c 3).trans (kept_arg1 m c), (h c 4).trans (kept_arg2 m c)⟩)
    (run_main m ρ)

end Cert.KernelIdeal.Sweep

end
-- ==== Proof.Spec.lean ====
/-
  One sweep of a spin lattice with a checkerboard-free Metropolis rule, as one function of the arrays.

  The lattice is 2048 x 2048 sites, periodic in both directions, in four independent batches.  The array `x` carries
  three planes per batch: the spins, a running trace of them, and the inverse temperature at each site.  At a site
  with spin `s`, neighbours `up`, `down`, `left`, `right`, inverse temperature `bb`, uniform draw `rnd` and
  keep-mask draw `drp`:

    energy  = (2 s) (((up + down) + left) + right)            the cost of flipping the spin
    accept  = 1 if energy <= 0, else exp ((0 - energy) bb)     the Metropolis acceptance
    sign    = -1 if rnd < accept and drp > 1/2, else 1
    spin'   = s sign          trace' = 0.9 trace + 0.1 s          inverse temperature unchanged.

  Float words are kept as the words the programs print (0.9 and 0.1 are the float words nearest them, the same
  words on both sides), so nothing here depends on what they denote.
-/
import Idealize.ShloMosaic.PureOps.Ideal
import Idealize.ShloMosaic.Lib.ValueIdx

noncomputable section

namespace Cert.Lattice

open Idealize.ShloMosaic Idealize.ShloMosaic.ValueIdx

variable {F : FTy → Type} [FloatOps F]

/-- The three-plane array, the draws, the keep mask's draws. -/
abbrev SX : Shape := ⟨4, ![4, 3, 2048, 2048]⟩
abbrev SR : Shape := ⟨4, ![4, 1, 2048, 2048]⟩
abbrev SD : Shape := ⟨2, ![2048, 2048]⟩

/-- The cyclic predecessor and successor of a row or column number. -/
def prev (r : Fin 2048) : Fin 2048 := ⟨(r.val + 2047) % 2048, Nat.mod_lt _ (by decide)⟩
def next (r : Fin 2048) : Fin 2048 := ⟨(r.val + 1) % 2048, Nat.mod_lt _ (by decide)⟩

/-- The cost of flipping a spin. -/
def energy (s up down left right : F .f32) : F .f32 :=
  FloatOps.mulf (FloatOps.mulf (Scalar.ofBits .f32 0x40000000#32) s)
    (FloatOps.addf (FloatOps.addf (FloatOps.addf up down) left) right)

/-- The acceptance of a flip of cost `de` at inverse temperature `bb`. -/
def accept (de bb : F .f32) : F .f32 :=
  Scalar.select (FloatOps.cmpf .ole de (Scalar.ofBits .f32 0x00000000#32)) (Scalar.ofBits .f32 0x3F800000#32)
    (FloatOps.exp (FloatOps.mulf (FloatOps.subf (Scalar.ofBits .f32 0x00000000#32) de) bb))

/-- The factor the spin is multiplied by: minus one when the flip is accepted and kept. -/
def sign (p rnd drp : F .f32) : F .f32 :=
  Scalar.select (IntOp.andi (FloatOps.cmpf .olt rnd p) (FloatOps.cmpf .ogt drp (Scalar.ofBits .f32 0x3F000000#32)))
    (Scalar.ofBits .f32 0xBF800000#32) (Scalar.ofBits .f32 0x3F800000#32)

/-- The new spin of a site. -/
def newSpin (s up down left right bb rnd drp : F .f32) : F .f32 :=
  FloatOps.mulf s (sign (accept (energy s up down left right) bb) rnd drp)

/-- The new trace of a site. -/
def newTrace (s tr : F .f32) : F .f32 :=
  FloatOps.addf (FloatOps.mulf (Scalar.ofBits .f32 0x3F666666#32) tr) (FloatOps.mulf (Scalar.ofBits .f32 0x3DCCCCCD#32) s)

/-- The result array: plane 0 the new spins, plane 1 the new trace, plane 2 the inverse temperature. -/
def sweep (x : SX.Idx → F .f32) (rnd : SR.Idx → F .f32) (drp : SD.Idx → F .f32) : SX.Idx → F .f32 := fun i =>
  if (i 1).val = 0 then
    newSpin (x (ix4 (i 0) (0 : Fin 3) (i 2) (i 3))) (x (ix4 (i 0) (0 : Fin 3) (prev (i 2)) (i 3)))
      (x (ix4 (i 0) (0 : Fin 3) (next (i 2)) (i 3))) (x (ix4 (i 0) (0 : Fin 3) (i 2) (prev (i 3))))
      (x (ix4 (i 0) (0 : Fin 3) (i 2) (next (i 3)))) (x (ix4 (i 0) (2 : Fin 3) (i 2) (i 3)))
      (rnd (ix4 (i 0) (0 : Fin 1) (i 2) (i 3))) (drp (ix2 (i 2) (i 3)))
  else if (i 1).val = 1 then newTrace (x (ix4 (i 0) (0 : Fin 3) (i 2) (i 3))) (x (ix4 (i 0) (1 : Fin 3) (i 2) (i 3)))
  else x (ix4 (i 0) (2 : Fin 3) (i 2) (i 3))

end Cert.Lattice

end
-- ==== Proof.LibRowShift.lean ====
/-
  A matrix moved by one row or one column, read at an index.

  Three ways a block of a periodic lattice is moved by one site, each read entry by entry:
  * moved DOWN one row, a given row put on top (the given row, then all rows but the last);
  * moved UP one row, a given row put at the bottom (all rows but the first, then the given row);
  * turned cyclically along its columns by a number of places.
-/
import Idealize.ShloMosaic.Lib.Pipeline.Value
import Idealize.ShloMosaic.Lib.KernelVsHost
import Idealize.ShloMosaic.Lib.ValueIdx

noncomputable section

namespace Cert.LibRowShift

open Idealize.ShloMosaic Idealize.ShloMosaic.ValueIdx

variable {α : Type}

/-- The row above row `p` (row 0 for `p = 0`, where no lemma below reads it). -/
def rowAbove {n : ℕ} (p : Fin n) : Fin n := ⟨p.val - 1, by have := p.isLt; omega⟩
/-- The row below row `p`, cyclically (row 0 for the last row, where no lemma below reads it). -/
def rowBelow {n : ℕ} (p : Fin n) : Fin n := ⟨(p.val + 1) % n, Nat.mod_lt _ (by have := p.isLt; omega)⟩

/-- The rows of `v` but the last, under a given top row: entry (p, q) is the top row's at p = 0 and `v`'s entry
    (p - 1, q) below it. -/
theorem shiftDown_apply {n n' m : ℕ} (hn : n' + 1 = n) (top : (⟨2, ![1, m]⟩ : Shape).Idx → α) (v : (⟨2, ![n, m]⟩ : Shape).Idx → α)
    (hs : (⟨2, ![n, m]⟩ : Shape).Slices ![0, 0] ⟨2, ![n', m]⟩)
    (hc : Shape.Concatenates [(⟨2, ![1, m]⟩ : Shape), ⟨2, ![n', m]⟩] ⟨2, ![n, m]⟩ 0) (p : Fin n) (q : Fin m) :
    concatenate ⟨2, ![n, m]⟩ 0 [⟨⟨2, ![1, m]⟩, top⟩, ⟨⟨2, ![n', m]⟩, extractStridedSlice ⟨2, ![n', m]⟩ ![0, 0] v hs⟩] hc (ix2 p q)
      = if p.val = 0 then top (ix2 (0 : Fin 1) q) else v (ix2 (rowAbove p) q) := by
  by_cases h : p.val = 0
  · rw [if_pos h]
    exact concatenate_pair_apply_left 0 top _ hc (ix2 p q) rfl (ix2 (0 : Fin 1) q) (fun b => match b with
      | ⟨0, _⟩ => h.symm
      | ⟨1, _⟩ => rfl)
  · rw [if_neg h]
    have hp : p.val - 1 < n' := by have := p.isLt; omega
    refine (concatenate_pair_apply_right 0 top _ hc (ix2 p q) rfl rfl (ix2 (⟨p.val - 1, hp⟩ : Fin n') q) (fun b hb => match b, hb with
      | ⟨0, _⟩, hb => absurd rfl hb
      | ⟨1, _⟩, _ => rfl) (by show p.val - 1 + 1 = p.val; omega)).trans ?_
    exact extractStridedSlice_apply ![0, 0] v hs _ _ (fun a => match a with
      | ⟨0, _⟩ => by show p.val - 1 = 0 + (p.val - 1); omega
      | ⟨1, _⟩ => by show q.val = 0 + q.val; omega)

/-- The rows of `v` but the first, over a given bottom row: entry (p, q) is `v`'s entry (p + 1, q) above the last
    row and the bottom row's at the last. -/
theorem shiftUp_apply {n n' m : ℕ} (hn : n' + 1 = n) (bot : (⟨2, ![1, m]⟩ : Shape).Idx → α) (v : (⟨2, ![n, m]⟩ : Shape).Idx → α)
    (hs : (⟨2, ![n, m]⟩ : Shape).Slices ![1, 0] ⟨2, ![n', m]⟩)
    (hc : Shape.Concatenates [(⟨2, ![n', m]⟩ : Shape), ⟨2, ![1, m]⟩] ⟨2, ![n, m]⟩ 0) (p : Fin n) (q : Fin m) :
    concatenate ⟨2, ![n, m]⟩ 0 [⟨⟨2, ![n', m]⟩, extractStridedSlice ⟨2, ![n', m]⟩ ![1, 0] v hs⟩, ⟨⟨2, ![1, m]⟩, bot⟩] hc (ix2 p q)
      = if p.val < n' then v (ix2 (rowBelow p) q) else bot (ix2 (0 : Fin 1) q) := by
  by_cases h : p.val < n'
  · rw [if_pos h]
    refine (concatenate_pair_apply_left 0 _ bot hc (ix2 p q) rfl (ix2 (⟨p.val, h⟩ : Fin n') q) (fun b => match b with
      | ⟨0, _⟩ => rfl
      | ⟨1, _⟩ => rfl)).trans ?_
    have hmod : (p.val + 1) % n = p.val + 1 := Nat.mod_eq_of_lt (by omega)
    exact extractStridedSlice_apply ![1, 0] v hs _ _ (fun a => match a with
      | ⟨0, _⟩ => by show (p.val + 1) % n = 1 + p.val; omega
      | ⟨1, _⟩ => by show q.val = 0 + q.val; omega)
  · rw [if_neg h]
    exact concatenate_pair_apply_right 0 _ bot hc (ix2 p q) rfl rfl (ix2 (0 : Fin 1) q) (fun b hb => match b, hb with
      | ⟨0, _⟩, hb => absurd rfl hb
      | ⟨1, _⟩, _ => rfl) (by show 0 + n' = p.val; have := p.isLt; omega)

/-- `v` turned cyclically along its columns by `sb` places: entry (p, q) is `v`'s entry (p, q - sb), the column
    number taken cyclically. -/
theorem turnCols_apply {n m : ℕ} (sb : BitVec 32) (v : (⟨2, ![n, m]⟩ : Shape).Idx → α)
    (h : (⟨2, ![n, m]⟩ : Shape).Rotates 1 none) (p : Fin n) (q : Fin m) (hm : 0 < m) :
    dynamicRotate 1 sb none v h (ix2 p q) = v (ix2 p (⟨(q.val + m - sb.toNat % m) % m, Nat.mod_lt _ hm⟩ : Fin m)) :=
  dynamicRotate_apply 1 sb v h (ix2 p q) _ (fun b => by
    by_cases hb : b = 1
    · subst hb; rw [if_pos rfl]; rfl
    · rw [if_neg hb]
      have hb2 : b.val < 2 := b.isLt
      have hb1 : b.val ≠ 1 := fun e => hb (Fin.ext e)
      have hb0 : b = 0 := Fin.ext (by show b.val = 0; omega)
      subst hb0; rfl)

end Cert.LibRowShift

end
-- ==== Proof.IdealPoint.lean ====
/-
  One point's written block, entry by entry.

  The block a point writes has three planes of 128 x 2048 entries.  Entry (plane, p, q) is the site update of
  `Spec` at the site in row p, column q of the point's 128-row band: plane 0 its new spin, plane 1 its new
  trace, plane 2 its inverse temperature.  The site's four neighbours are read from the band itself, except that
  the neighbour above row 0 is the last row of the strip above the band and the neighbour below row 127 is the
  first row of the strip below it; columns are taken cyclically inside the band, which spans the whole width.
-/
import proofs.«100500_j47450798686483_2_alg».proof.Proof.IdealBody
import proofs.«100500_j47450798686483_2_alg».proof.Proof.Spec
import proofs.«100500_j47450798686483_2_alg».proof.Proof.LibRowShift

set_option maxRecDepth 16384

noncomputable section

namespace Cert.KernelIdeal.Sweep

open Cert.KernelIdeal Cert.KernelIdeal.Gen Cert.Lattice Cert.LibRowShift
open Idealize.ShloMosaic Idealize.ShloMosaic.ValueIdx

variable {F : FTy → Type} [FloatOps F]

/-! ## The casts between a one-plane block and its 128 x 2048 matrix -/

theorem plane_cast (x : Vec F S1x1x128x2048 .f32) (h : S1x1x128x2048.ShapeCasts S128x2048) (p : Fin 128) (q : Fin 2048) :
    shapeCast S128x2048 x h (ix2 p q) = x (ix4 (0 : Fin 1) (0 : Fin 1) p q) :=
  shapeCast_apply x h _ _ (by
    rw [Shape.rowMajor_val_four, Shape.rowMajor_val_two]
    show ((0 * 1 + 0) * 128 + p.val) * 2048 + q.val = p.val * 2048 + q.val
    omega)

theorem row_cast (x : Vec F S1x1x1x2048 .f32) (h : S1x1x1x2048.ShapeCasts S1x2048) (q : Fin 2048) :
    shapeCast S1x2048 x h (ix2 (0 : Fin 1) q) = x (ix4 (0 : Fin 1) (0 : Fin 1) (0 : Fin 1) q) :=
  shapeCast_apply x h _ _ (by
    rw [Shape.rowMajor_val_four, Shape.rowMajor_val_two]
    show ((0 * 1 + 0) * 1 + 0) * 2048 + q.val = 0 * 2048 + q.val
    omega)

theorem back_cast (v : FVec F S128x2048 .f32) (h : S128x2048.ShapeCasts S1x1x128x2048) (a b : Fin 1) (p : Fin 128) (q : Fin 2048) :
    shapeCast S1x1x128x2048 v h (ix4 a b p q) = v (ix2 p q) :=
  shapeCast_apply v h _ _ (by
    have ha : a.val = 0 := by omega
    have hb : b.val = 0 := by omega
    rw [Shape.rowMajor_val_four, Shape.rowMajor_val_two]
    show p.val * 2048 + q.val = ((a.val * 1 + b.val) * 128 + p.val) * 2048 + q.val
    rw [ha, hb]; omega)

/-! ## The four neighbours inside a band -/

/-- The band moved down one row under the strip's row: the neighbour above. -/
theorem above_at (top : FVec F S1x2048 .f32) (v : FVec F S128x2048 .f32) (hs : S128x2048.Slices ![0, 0] S127x2048)
    (hc : Shape.Concatenates [S1x2048, S127x2048] S128x2048 0) (p : Fin 128) (q : Fin 2048) :
    concatenate S128x2048 0 [⟨S1x2048, top⟩, ⟨S127x2048, extractStridedSlice S127x2048 ![0, 0] v hs⟩] hc (ix2 p q)
      = if p.val = 0 then top (ix2 (0 : Fin 1) q) else v (ix2 (rowAbove p) q) :=
  shiftDown_apply (n := 128) (n' := 127) (m := 2048) rfl top v hs hc p q

/-- The band moved up one row over the strip's row: the neighbour below. -/
theorem below_at (bot : FVec F S1x2048 .f32) (v : FVec F S128x2048 .f32) (hs : S128x2048.Slices ![1, 0] S127x2048)
    (hc : Shape.Concatenates [S127x2048, S1x2048] S128x2048 0) (p : Fin 128) (q : Fin 2048) :
    concatenate S128x2048 0 [⟨S127x2048, extractStridedSlice S127x2048 ![1, 0] v hs⟩, ⟨S1x2048, bot⟩] hc (ix2 p q)
      = if p.val < 127 then v (ix2 (rowBelow p) q) else bot (ix2 (0 : Fin 1) q) :=
  shiftUp_apply (n := 128) (n' := 127) (m := 2048) rfl bot v hs hc p q

/-- The band turned one column to the right: the neighbour on the left, cyclically. -/
theorem left_at (v : FVec F S128x2048 .f32) (h : S128x2048.Rotates 1 none) (p : Fin 128) (q : Fin 2048) :
    dynamicRotate 1 1#32 none v h (ix2 p q) = v (ix2 p (prev q)) :=
  (turnCols_apply (n := 128) (m := 2048) 1#32 v h p q (by decide)).trans
    (congrArg (fun z => v (ix2 p z)) (Fin.ext (by show (q.val + 2048 - 1) % 2048 = (q.val + 2047) % 2048; omega)))

/-- The band turned 2047 columns to the right, that is one to the left: the neighbour on the right. -/
theorem right_at (v : FVec F S128x2048 .f32) (h : S128x2048.Rotates 1 none) (p : Fin 128) (q : Fin 2048) :
    dynamicRotate 1 2047#32 none v h (ix2 p q) = v (ix2 p (next q)) :=
  (turnCols_apply (n := 128) (m := 2048) 2047#32 v h p q (by decide)).trans
    (congrArg (fun z => v (ix2 p z)) (Fin.ext (by show (q.val + 2048 - 2047) % 2048 = (q.val + 1) % 2048; omega)))

/-! ## The flip's cost at a site of the band -/

/-- The neighbour above the site in row p: the strip's row at p = 0. -/
def upOf (v0 : Vec F S1x1x128x2048 .f32) (v9 : Vec F S1x1x1x2048 .f32) (p : Fin 128) (q : Fin 2048) : F .f32 :=
  if p.val = 0 then v9 (ix4 (0 : Fin 1) (0 : Fin 1) (0 : Fin 1) q)
  else v0 (ix4 (0 : Fin 1) (0 : Fin 1) (rowAbove p) q)

/-- The neighbour below the site in row p: the strip's row at p = 127. -/
def downOf (v0 : Vec F S1x1x128x2048 .f32) (v11 : Vec F S1x1x1x2048 .f32) (p : Fin 128) (q : Fin 2048) : F .f32 :=
  if p.val < 127 then v0 (ix4 (0 : Fin 1) (0 : Fin 1) (rowBelow p) q)
  else v11 (ix4 (0 : Fin 1) (0 : Fin 1) (0 : Fin 1) q)

theorem energy_at (v0 : Vec F S1x1x128x2048 .f32) (v9 v11 : Vec F S1x1x1x2048 .f32) (p : Fin 128) (q : Fin 2048) :
    k0_pay8 v0 v9 v11 (ix2 p q)
      = energy (v0 (ix4 (0 : Fin 1) (0 : Fin 1) p q)) (upOf v0 v9 p q) (downOf v0 v11 p q)
          (v0 (ix4 (0 : Fin 1) (0 : Fin 1) p (prev q))) (v0 (ix4 (0 : Fin 1) (0 : Fin 1) p (next q))) := by
  unfold k0_pay8 k0_pay4 energy upOf downOf
  show FloatOps.mulf (FloatOps.mulf (Scalar.ofBits .f32 0x40000000#32) (shapeCast S128x2048 v0 _ (ix2 p q)))
      (FloatOps.addf (FloatOps.addf (FloatOps.addf
        (concatenate S128x2048 0 [⟨S1x2048, _⟩, ⟨S127x2048, extractStridedSlice (s := S128x2048) S127x2048 ![0, 0] _ _⟩] _ (ix2 p q))
        (concatenate S128x2048 0 [⟨S127x2048, extractStridedSlice (s := S128x2048) S127x2048 ![1, 0] _ _⟩, ⟨S1x2048, _⟩] _ (ix2 p q)))
        (dynamicRotate 1 1#32 none _ _ (ix2 p q))) (dynamicRotate 1 2047#32 none _ _ (ix2 p q))) = _
  rw [above_at, below_at, left_at, right_at]
  rw [plane_cast v0 _ p q, plane_cast v0 _ (rowAbove p) q, plane_cast v0 _ (rowBelow p) q, plane_cast v0 _ p (prev q),
    plane_cast v0 _ p (next q), row_cast v9 _ q, row_cast v11 _ q]

/-! ## The three planes of the written block, at an entry -/

theorem pay1_at (v1 v5 v7 : FVec F S128x2048 .f32) (v8 : Vec F S128x2048 .f32) (v24 : FVec F S128x2048 .f32) (v26 : IVec S128x2048 1)
    (cst : F .f32) (a b : Fin 1) (p : Fin 128) (q : Fin 2048) :
    k0_pay1 v1 v5 v7 v8 v24 v26 cst (ix4 a b p q)
      = FloatOps.mulf (v1 (ix2 p q))
          (sign (Scalar.select (v26 (ix2 p q)) cst
              (FloatOps.exp (FloatOps.mulf (FloatOps.subf (Scalar.ofBits .f32 0x00000000#32) (v24 (ix2 p q))) (v5 (ix2 p q)))))
            (v7 (ix2 p q)) (v8 (ix2 p q))) := by
  unfold k0_pay1 sign
  exact back_cast _ _ a b p q

theorem pay4_at (x : Vec F S1x1x128x2048 .f32) (p : Fin 128) (q : Fin 2048) :
    k0_pay4 x (ix2 p q) = x (ix4 (0 : Fin 1) (0 : Fin 1) p q) := by unfold k0_pay4; exact plane_cast x _ p q
theorem pay5_at (x : Vec F S1x1x128x2048 .f32) (p : Fin 128) (q : Fin 2048) :
    k0_pay5 x (ix2 p q) = x (ix4 (0 : Fin 1) (0 : Fin 1) p q) := by unfold k0_pay5; exact plane_cast x _ p q
theorem pay6_at (x : Vec F S1x1x128x2048 .f32) (p : Fin 128) (q : Fin 2048) :
    k0_pay6 x (ix2 p q) = x (ix4 (0 : Fin 1) (0 : Fin 1) p q) := by unfold k0_pay6; exact plane_cast x _ p q
theorem pay7_at (x : Vec F S1x1x128x2048 .f32) (p : Fin 128) (q : Fin 2048) :
    k0_pay7 x (ix2 p q) = x (ix4 (0 : Fin 1) (0 : Fin 1) p q) := by unfold k0_pay7; exact plane_cast x _ p q

/-- Plane 0: the new spin of the site. -/
theorem spin_at (xs xb xr : Vec F S1x1x128x2048 .f32) (xm : Vec F S128x2048 .f32) (v9 v11 : Vec F S1x1x1x2048 .f32)
    (a b : Fin 1) (p : Fin 128) (q : Fin 2048) :
    k0_pay1 (k0_pay4 xs) (k0_pay6 xb) (k0_pay7 xr) xm (k0_pay8 xs v9 v11) (k0_pay9 xs v9 v11) (Scalar.ofBits .f32 0x3F800000#32) (ix4 a b p q)
      = newSpin (xs (ix4 (0 : Fin 1) (0 : Fin 1) p q)) (upOf xs v9 p q) (downOf xs v11 p q)
          (xs (ix4 (0 : Fin 1) (0 : Fin 1) p (prev q))) (xs (ix4 (0 : Fin 1) (0 : Fin 1) p (next q)))
          (xb (ix4 (0 : Fin 1) (0 : Fin 1) p q)) (xr (ix4 (0 : Fin 1) (0 : Fin 1) p q)) (xm (ix2 p q)) := by
  have e9 : k0_pay9 xs v9 v11 (ix2 p q) = FloatOps.cmpf .ole (k0_pay8 xs v9 v11 (ix2 p q)) (Scalar.ofBits .f32 0x00000000#32) := rfl
  rw [pay1_at, pay4_at, pay6_at, pay7_at, e9, energy_at]
  rfl

/-- Plane 1: the new trace of the site. -/
theorem trace_at (xs xt : Vec F S1x1x128x2048 .f32) (a b : Fin 1) (p : Fin 128) (q : Fin 2048) :
    k0_pay2 (k0_pay4 xs) (k0_pay5 xt) (ix4 a b p q)
      = newTrace (xs (ix4 (0 : Fin 1) (0 : Fin 1) p q)) (xt (ix4 (0 : Fin 1) (0 : Fin 1) p q)) := by
  have e : k0_pay2 (k0_pay4 xs) (k0_pay5 xt) (ix4 a b p q)
      = FloatOps.addf (FloatOps.mulf (Scalar.ofBits .f32 0x3F666666#32) (k0_pay5 xt (ix2 p q)))
          (FloatOps.mulf (Scalar.ofBits .f32 0x3DCCCCCD#32) (k0_pay4 xs (ix2 p q))) := by
    unfold k0_pay2; exact back_cast _ _ a b p q
  rw [e, pay4_at, pay5_at]
  rfl

/-- Plane 2: the inverse temperature of the site. -/
theorem temp_at (xb : Vec F S1x1x128x2048 .f32) (a b : Fin 1) (p : Fin 128) (q : Fin 2048) :
    k0_pay3 (k0_pay6 xb) (ix4 a b p q) = xb (ix4 (0 : Fin 1) (0 : Fin 1) p q) := by
  have e : k0_pay3 (k0_pay6 xb) (ix4 a b p q) = k0_pay6 xb (ix2 p q) := by unfold k0_pay3; exact back_cast _ _ a b p q
  rw [e, pay6_at]

/-! ## The whole written block -/

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The written block, entry by entry, from the seven blocks read. -/
def blockSpec (xs xt xb xr : Vec F S1x1x128x2048 .f32) (xm : Vec F S128x2048 .f32) (xu xd : Vec F S1x1x8x2048 .f32) :
    S1x3x128x2048.Idx → F .f32 := fun y =>
  if (y 1).val = 0 then
    newSpin (xs (ix4 (0 : Fin 1) (0 : Fin 1) (y 2) (y 3))) (upOf xs (View.ld xu rAbove) (y 2) (y 3)) (downOf xs (View.ld xd rBelow) (y 2) (y 3))
      (xs (ix4 (0 : Fin 1) (0 : Fin 1) (y 2) (prev (y 3)))) (xs (ix4 (0 : Fin 1) (0 : Fin 1) (y 2) (next (y 3))))
      (xb (ix4 (0 : Fin 1) (0 : Fin 1) (y 2) (y 3))) (xr (ix4 (0 : Fin 1) (0 : Fin 1) (y 2) (y 3))) (xm (ix2 (y 2) (y 3)))
  else if (y 1).val = 1 then
    newTrace (xs (ix4 (0 : Fin 1) (0 : Fin 1) (y 2) (y 3))) (xt (ix4 (0 : Fin 1) (0 : Fin 1) (y 2) (y 3)))
  else xb (ix4 (0 : Fin 1) (0 : Fin 1) (y 2) (y 3))

theorem outBlock_apply (xs xt xb xr : Vec F S1x1x128x2048 .f32) (xm : Vec F S128x2048 .f32) (xu xd : Vec F S1x1x8x2048 .f32)
    (y : S1x3x128x2048.Idx) : outBlock xs xt xb xr xm xu xd y = blockSpec xs xt xb xr xm xu xd y := by
  unfold outBlock
  simp only [View.ld_unit_zero (S := S1x1x128x2048) zeros4, View.ld_unit_zero (S := S128x2048) zeros2]
  refine View.canon_apply_of_pieces (blockSpec xs xt xb xr xm xu xd) _ ?_ y (outCover _ _ _ y)
  intro pc hpc x
  simp only [List.mem_cons, List.not_mem_nil, or_false] at hpc
  rcases hpc with rfl | rfl | rfl
  · obtain ⟨a, b, p, q, rfl⟩ : ∃ (a b : Fin 1) (p : Fin 128) (q : Fin 2048), x = ix4 a b p q := ⟨x 0, x 1, x 2, x 3, eq_ix4 x⟩
    show k0_pay3 (k0_pay6 xb) (ix4 a b p q) = blockSpec xs xt xb xr xm xu xd (rOut2.emb (ix4 a b p q))
    rw [temp_at]
    have h1 : ((rOut2.emb (ix4 a b p q)) 1).val = 2 := by show 2 + 1 * b.val = 2; omega
    have h2 : (rOut2.emb (ix4 a b p q)) 2 = p := Fin.ext (by show 0 + 1 * p.val = p.val; omega)
    have h3 : (rOut2.emb (ix4 a b p q)) 3 = q := Fin.ext (by show 0 + 1 * q.val = q.val; omega)
    unfold blockSpec
    rw [if_neg (by rw [h1]; decide), if_neg (by rw [h1]; decide), h2, h3]
  · obtain ⟨a, b, p, q, rfl⟩ : ∃ (a b : Fin 1) (p : Fin 128) (q : Fin 2048), x = ix4 a b p q := ⟨x 0, x 1, x 2, x 3, eq_ix4 x⟩
    show k0_pay2 (k0_pay4 xs) (k0_pay5 xt) (ix4 a b p q) = blockSpec xs xt xb xr xm xu xd (rOut1.emb (ix4 a b p q))
    rw [trace_at]
    have h1 : ((rOut1.emb (ix4 a b p q)) 1).val = 1 := by show 1 + 1 * b.val = 1; omega
    have h2 : (rOut1.emb (ix4 a b p q)) 2 = p := Fin.ext (by show 0 + 1 * p.val = p.val; omega)
    have h3 : (rOut1.emb (ix4 a b p q)) 3 = q := Fin.ext (by show 0 + 1 * q.val = q.val; omega)
    unfold blockSpec
    rw [if_neg (by rw [h1]; decide), if_pos h1, h2, h3]
  · obtain ⟨a, b, p, q, rfl⟩ : ∃ (a b : Fin 1) (p : Fin 128) (q : Fin 2048), x = ix4 a b p q := ⟨x 0, x 1, x 2, x 3, eq_ix4 x⟩
    show k0_pay1 (k0_pay4 xs) (k0_pay6 xb) (k0_pay7 xr) xm (k0_pay8 xs (View.ld xu rAbove) (View.ld xd rBelow))
        (k0_pay9 xs (View.ld xu rAbove) (View.ld xd rBelow)) (Scalar.ofBits .f32 0x3F800000#32) (ix4 a b p q)
      = blockSpec xs xt xb xr xm xu xd (rOut0.emb (ix4 a b p q))
    rw [spin_at]
    have h1 : ((rOut0.emb (ix4 a b p q)) 1).val = 0 := by show 0 + 1 * b.val = 0; omega
    have h2 : (rOut0.emb (ix4 a b p q)) 2 = p := Fin.ext (by show 0 + 1 * p.val = p.val; omega)
    have h3 : (rOut0.emb (ix4 a b p q)) 3 = q := Fin.ext (by show 0 + 1 * q.val = q.val; omega)
    unfold blockSpec
    rw [if_pos h1, h2, h3]

/-! ## The written block against the whole-array update -/

/-- Row p of the band that starts at row 128 H. -/
def rowOf (H : Fin 16) (p : Fin 128) : Fin 2048 := ⟨H.val * 128 + p.val, by have := H.isLt; have := p.isLt; omega⟩

theorem rowOf_above (H : Fin 16) (p : Fin 128) (hp : p.val ≠ 0) : rowOf H (rowAbove p) = prev (rowOf H p) :=
  Fin.ext (by
    have := H.isLt; have := p.isLt
    show H.val * 128 + (p.val - 1) = (H.val * 128 + p.val + 2047) % 2048
    omega)

theorem rowOf_below (H : Fin 16) (p : Fin 128) (hp : p.val < 127) : rowOf H (rowBelow p) = next (rowOf H p) :=
  Fin.ext (by
    have := H.isLt
    show H.val * 128 + (p.val + 1) % 128 = (H.val * 128 + p.val + 1) % 2048
    omega)

/-- When the seven blocks are the band's rows of batch `B` (and the strips' rows the band's cyclic neighbours), the
    written block is the band's rows of the whole-array update. -/
theorem block_eq (x : SX.Idx → F .f32) (rn : SR.Idx → F .f32) (dr : SD.Idx → F .f32)
    (xs xt xb xr : Vec F S1x1x128x2048 .f32) (xm : Vec F S128x2048 .f32) (xu xd : Vec F S1x1x8x2048 .f32)
    (B : Fin 4) (H : Fin 16)
    (hs : ∀ (p : Fin 128) (q : Fin 2048), xs (ix4 (0 : Fin 1) (0 : Fin 1) p q) = x (ix4 B (0 : Fin 3) (rowOf H p) q))
    (ht : ∀ (p : Fin 128) (q : Fin 2048), xt (ix4 (0 : Fin 1) (0 : Fin 1) p q) = x (ix4 B (1 : Fin 3) (rowOf H p) q))
    (hb : ∀ (p : Fin 128) (q : Fin 2048), xb (ix4 (0 : Fin 1) (0 : Fin 1) p q) = x (ix4 B (2 : Fin 3) (rowOf H p) q))
    (hr : ∀ (p : Fin 128) (q : Fin 2048), xr (ix4 (0 : Fin 1) (0 : Fin 1) p q) = rn (ix4 B (0 : Fin 1) (rowOf H p) q))
    (hm : ∀ (p : Fin 128) (q : Fin 2048), xm (ix2 p q) = dr (ix2 (rowOf H p) q))
    (hu : ∀ q : Fin 2048, xu (ix4 (0 : Fin 1) (0 : Fin 1) (7 : Fin 8) q) = x (ix4 B (0 : Fin 3) (prev (rowOf H 0)) q))
    (hd : ∀ q : Fin 2048, xd (ix4 (0 : Fin 1) (0 : Fin 1) (0 : Fin 8) q) = x (ix4 B (0 : Fin 3) (next (rowOf H 127)) q))
    (a : Fin 1) (ch : Fin 3) (p : Fin 128) (q : Fin 2048) :
    blockSpec xs xt xb xr xm xu xd (ix4 a ch p q) = sweep x rn dr (ix4 B ch (rowOf H p) q) := by
  have hup : upOf xs (View.ld xu rAbove) p q = x (ix4 B (0 : Fin 3) (prev (rowOf H p)) q) := by
    unfold upOf
    by_cases hp : p.val = 0
    · rw [if_pos hp]
      have e : rAbove.idx (ix4 (0 : Fin 1) (0 : Fin 1) (0 : Fin 1) q) = ix4 (0 : Fin 1) (0 : Fin 1) (7 : Fin 8) q := by
        funext k; apply Fin.ext
        match k with
        | ⟨0, _⟩ => rfl
        | ⟨1, _⟩ => rfl
        | ⟨2, _⟩ => rfl
        | ⟨3, _⟩ => show 0 + 1 * q.val = q.val; omega
      show xu (rAbove.idx (ix4 (0 : Fin 1) (0 : Fin 1) (0 : Fin 1) q)) = _
      rw [e, hu, show p = 0 from Fin.ext hp]
    · rw [if_neg hp, hs, rowOf_above H p hp]
  have hdn : downOf xs (View.ld xd rBelow) p q = x (ix4 B (0 : Fin 3) (next (rowOf H p)) q) := by
    unfold downOf
    by_cases hp : p.val < 127
    · rw [if_pos hp, hs, rowOf_below H p hp]
    · rw [if_neg hp]
      have e : rBelow.idx (ix4 (0 : Fin 1) (0 : Fin 1) (0 : Fin 1) q) = ix4 (0 : Fin 1) (0 : Fin 1) (0 : Fin 8) q := by
        funext k; apply Fin.ext
        match k with
        | ⟨0, _⟩ => rfl
        | ⟨1, _⟩ => rfl
        | ⟨2, _⟩ => rfl
        | ⟨3, _⟩ => show 0 + 1 * q.val = q.val; omega
      show xd (rBelow.idx (ix4 (0 : Fin 1) (0 : Fin 1) (0 : Fin 1) q)) = _
      rw [e, hd, show p = 127 from Fin.ext (by have := p.isLt; show p.val = 127; omega)]
  unfold blockSpec sweep
  show (if ch.val = 0 then _ else if ch.val = 1 then _ else _) = (if ch.val = 0 then _ else if ch.val = 1 then _ else _)
  by_cases h0 : ch.val = 0
  · rw [if_pos h0, if_pos h0]
    show newSpin (xs (ix4 (0 : Fin 1) (0 : Fin 1) p q)) (upOf xs (View.ld xu rAbove) p q) (downOf xs (View.ld xd rBelow) p q)
        (xs (ix4 (0 : Fin 1) (0 : Fin 1) p (prev q))) (xs (ix4 (0 : Fin 1) (0 : Fin 1) p (next q)))
        (xb (ix4 (0 : Fin 1) (0 : Fin 1) p q)) (xr (ix4 (0 : Fin 1) (0 : Fin 1) p q)) (xm (ix2 p q))
      = newSpin (x (ix4 B (0 : Fin 3) (rowOf H p) q)) (x (ix4 B (0 : Fin 3) (prev (rowOf H p)) q)) (x (ix4 B (0 : Fin 3) (next (rowOf H p)) q))
          (x (ix4 B (0 : Fin 3) (rowOf H p) (prev q))) (x (ix4 B (0 : Fin 3) (rowOf H p) (next q)))
          (x (ix4 B (2 : Fin 3) (rowOf H p) q)) (rn (ix4 B (0 : Fin 1) (rowOf H p) q)) (dr (ix2 (rowOf H p) q))
    rw [hup, hdn, hs, hs, hs, hb, hr, hm]
  · rw [if_neg h0, if_neg h0]
    by_cases h1 : ch.val = 1
    · rw [if_pos h1, if_pos h1]
      show newTrace (xs (ix4 (0 : Fin 1) (0 : Fin 1) p q)) (xt (ix4 (0 : Fin 1) (0 : Fin 1) p q))
        = newTrace (x (ix4 B (0 : Fin 3) (rowOf H p) q)) (x (ix4 B (1 : Fin 3) (rowOf H p) q))
      rw [hs, ht]
    · rw [if_neg h1, if_neg h1]
      show xb (ix4 (0 : Fin 1) (0 : Fin 1) p q) = x (ix4 B (2 : Fin 3) (rowOf H p) q)
      exact hb p q

end Cert.KernelIdeal.Sweep

end
-- ==== Proof.IdealValue.lean ====
/-
  From the 64 written blocks to the whole result array.

  Point (h, b) writes its three-plane block at batch b, rows 128h .. 128h+127; the 64 blocks tile the array.  Each
  block is the band's rows of the whole-array update `sweep` of the argument arrays (the point's seven blocks are
  cut from those arrays at the band, the two strips at the band's cyclic neighbours), so when the sweep ends the
  result array is `sweep` of the argument arrays.
-/
import proofs.«100500_j47450798686483_2_alg».proof.Proof.IdealRun
import proofs.«100500_j47450798686483_2_alg».proof.Proof.IdealPoint

set_option maxRecDepth 16384

noncomputable section

namespace Cert.KernelIdeal.Sweep

open Cert.KernelIdeal Cert.KernelIdeal.Gen Cert.Lattice Cert.LibRowShift
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The written block's place, decided over the 64 points: its batch below 4, its band below 16, planes and
    columns from 0. -/
theorem facts_7 : ∀ t : Fin cfg0.N,
    win0_7.index t (0 : Fin 4) ≤ 3 ∧ win0_7.index t (1 : Fin 4) = 0
    ∧ win0_7.index t (2 : Fin 4) ≤ 15 ∧ win0_7.index t (3 : Fin 4) = 0 :=
  (by decide +kernel : ∀ t : Fin grid0.N, _)

/-- Every batch and band is some point's. -/
theorem idx_onto : ∀ (q0 : Fin 4) (q2 : Fin 16), ∃ t : Fin cfg0.N, win0_7.index t = ![q0.val, 0, q2.val, 0] :=
  (by decide +kernel : ∀ (q0 : Fin 4) (q2 : Fin 16), ∃ t : Fin grid0.N, win0_7.index t = ![q0.val, 0, q2.val, 0])

/-- The batch and the band of point `t`. -/
def batchOf (t : Fin cfg0.N) : Fin 4 := ⟨win0_7.index t (0 : Fin 4), by have := (facts_7 t).1; omega⟩
def bandOf (t : Fin cfg0.N) : Fin 16 := ⟨win0_7.index t (2 : Fin 4), by have := (facts_7 t).2.2.1; omega⟩

theorem facts_0 : ∀ t : Fin cfg0.N,
    win0_0.index t (0 : Fin 4) = win0_7.index t (0 : Fin 4) ∧ win0_0.index t (1 : Fin 4) = 0
    ∧ win0_0.index t (2 : Fin 4) = win0_7.index t (2 : Fin 4) ∧ win0_0.index t (3 : Fin 4) = 0 :=
  (by decide +kernel : ∀ t : Fin grid0.N, _)

/-- Reader 0's block is the band's rows of the spin plane. -/
theorem read_0 (c : Dev nD) (t : Fin cfg0.N) (p : Fin 128) (q : Fin 2048) :
    iblk m c 0 t (ix4 (0 : Fin 1) (0 : Fin 1) p q) = V m c main_arg0 (ix4 (batchOf t) (0 : Fin 3) (rowOf (bandOf t) p) q) := by
  obtain ⟨e0, e1, e2, e3⟩ := facts_0 t
  show V m c main_arg0 (((cfg0.win 0).blk t).view.emb (ix4 (0 : Fin 1) (0 : Fin 1) p q)) = _
  refine congrArg (V m c main_arg0) (funext fun k => Fin.ext ?_)
  match k with
  | ⟨0, _⟩ => show win0_0.index t (0 : Fin 4) * 1 + 1 * 0 = win0_7.index t (0 : Fin 4); omega
  | ⟨1, _⟩ => show win0_0.index t (1 : Fin 4) * 1 + 1 * 0 = 0; omega
  | ⟨2, _⟩ => show win0_0.index t (2 : Fin 4) * 128 + 1 * p.val = win0_7.index t (2 : Fin 4) * 128 + p.val; omega
  | ⟨3, _⟩ => show win0_0.index t (3 : Fin 4) * 2048 + 1 * q.val = q.val; omega

theorem facts_1 : ∀ t : Fin cfg0.N,
    win0_1.index t (0 : Fin 4) = win0_7.index t (0 : Fin 4) ∧ win0_1.index t (1 : Fin 4) = 1
    ∧ win0_1.index t (2 : Fin 4) = win0_7.index t (2 : Fin 4) ∧ win0_1.index t (3 : Fin 4) = 0 :=
  (by decide +kernel : ∀ t : Fin grid0.N, _)

/-- Reader 1's block is the band's rows of the trace plane. -/
theorem read_1 (c : Dev nD) (t : Fin cfg0.N) (p : Fin 128) (q : Fin 2048) :
    iblk m c 1 t (ix4 (0 : Fin 1) (0 : Fin 1) p q) = V m c main_arg0 (ix4 (batchOf t) (1 : Fin 3) (rowOf (bandOf t) p) q) := by
  obtain ⟨e0, e1, e2, e3⟩ := facts_1 t
  show V m c main_arg0 (((cfg0.win 1).blk t).view.emb (ix4 (0 : Fin 1) (0 : Fin 1) p q)) = _
  refine congrArg (V m c main_arg0) (funext fun k => Fin.ext ?_)
  match k with
  | ⟨0, _⟩ => show win0_1.index t (0 : Fin 4) * 1 + 1 * 0 = win0_7.index t (0 : Fin 4); omega
  | ⟨1, _⟩ => show win0_1.index t (1 : Fin 4) * 1 + 1 * 0 = 1; omega
  | ⟨2, _⟩ => show win0_1.index t (2 : Fin 4) * 128 + 1 * p.val = win0_7.index t (2 : Fin 4) * 128 + p.val; omega
  | ⟨3, _⟩ => show win0_1.index t (3 : Fin 4) * 2048 + 1 * q.val = q.val; omega

theorem facts_2 : ∀ t : Fin cfg0.N,
    win0_2.index t (0 : Fin 4) = win0_7.index t (0 : Fin 4) ∧ win0_2.index t (1 : Fin 4) = 2
    ∧ win0_2.index t (2 : Fin 4) = win0_7.index t (2 : Fin 4) ∧ win0_2.index t (3 : Fin 4) = 0 :=
  (by decide +kernel : ∀ t : Fin grid0.N, _)

/-- Reader 2's block is the band's rows of the inverse-temperature plane. -/
theorem read_2 (c : Dev nD) (t : Fin cfg0.N) (p : Fin 128) (q : Fin 2048) :
    iblk m c 2 t (ix4 (0 : Fin 1) (0 : Fin 1) p q) = V m c main_arg0 (ix4 (batchOf t) (2 : Fin 3) (rowOf (bandOf t) p) q) := by
  obtain ⟨e0, e1, e2, e3⟩ := facts_2 t
  show V m c main_arg0 (((cfg0.win 2).blk t).view.emb (ix4 (0 : Fin 1) (0 : Fin 1) p q)) = _
  refine congrArg (V m c main_arg0) (funext fun k => Fin.ext ?_)
  match k with
  | ⟨0, _⟩ => show win0_2.index t (0 : Fin 4) * 1 + 1 * 0 = win0_7.index t (0 : Fin 4); omega
  | ⟨1, _⟩ => show win0_2.index t (1 : Fin 4) * 1 + 1 * 0 = 2; omega
  | ⟨2, _⟩ => show win0_2.index t (2 : Fin 4) * 128 + 1 * p.val = win0_7.index t (2 : Fin 4) * 128 + p.val; omega
  | ⟨3, _⟩ => show win0_2.index t (3 : Fin 4) * 2048 + 1 * q.val = q.val; omega

theorem facts_3 : ∀ t : Fin cfg0.N,
    win0_3.index t (0 : Fin 4) = win0_7.index t (0 : Fin 4) ∧ win0_3.index t (1 : Fin 4) = 0
    ∧ win0_3.index t (2 : Fin 4) = win0_7.index t (2 : Fin 4) ∧ win0_3.index t (3 : Fin 4) = 0 :=
  (by decide +kernel : ∀ t : Fin grid0.N, _)

/-- Reader 3's block is the band's rows of the draws. -/
theorem read_3 (c : Dev nD) (t : Fin cfg0.N) (p : Fin 128) (q : Fin 2048) :
    iblk m c 3 t (ix4 (0 : Fin 1) (0 : Fin 1) p q) = V m c main_arg1 (ix4 (batchOf t) (0 : Fin 1) (rowOf (bandOf t) p) q) := by
  obtain ⟨e0, e1, e2, e3⟩ := facts_3 t
  show V m c main_arg1 (((cfg0.win 3).blk t).view.emb (ix4 (0 : Fin 1) (0 : Fin 1) p q)) = _
  refine congrArg (V m c main_arg1) (funext fun k => Fin.ext ?_)
  match k with
  | ⟨0, _⟩ => show win0_3.index t (0 : Fin 4) * 1 + 1 * 0 = win0_7.index t (0 : Fin 4); omega
  | ⟨1, _⟩ => show win0_3.index t (1 : Fin 4) * 1 + 1 * 0 = 0; omega
  | ⟨2, _⟩ => show win0_3.index t (2 : Fin 4) * 128 + 1 * p.val = win0_7.index t (2 : Fin 4) * 128 + p.val; omega
  | ⟨3, _⟩ => show win0_3.index t (3 : Fin 4) * 2048 + 1 * q.val = q.val; omega

theorem facts_4 : ∀ t : Fin cfg0.N,
    win0_4.index t (0 : Fin 2) = win0_7.index t (2 : Fin 4) ∧ win0_4.index t (1 : Fin 2) = 0 :=
  (by decide +kernel : ∀ t : Fin grid0.N, _)

/-- Reader 4's block is the band's rows of the keep mask's draws. -/
theorem read_4 (c : Dev nD) (t : Fin cfg0.N) (p : Fin 128) (q : Fin 2048) :
    iblk m c 4 t (ix2 p q) = V m c main_arg2 (ix2 (rowOf (bandOf t) p) q) := by
  obtain ⟨e0, e1⟩ := facts_4 t
  show V m c main_arg2 (((cfg0.win 4).blk t).view.emb (ix2 p q)) = _
  refine congrArg (V m c main_arg2) (funext fun k => Fin.ext ?_)
  match k with
  | ⟨0, _⟩ => show win0_4.index t (0 : Fin 2) * 128 + 1 * p.val = win0_7.index t (2 : Fin 4) * 128 + p.val; omega
  | ⟨1, _⟩ => show win0_4.index t (1 : Fin 2) * 2048 + 1 * q.val = q.val; omega

theorem facts_5 : ∀ t : Fin cfg0.N,
    win0_5.index t (0 : Fin 4) = win0_7.index t (0 : Fin 4) ∧ win0_5.index t (1 : Fin 4) = 0
    ∧ win0_5.index t (2 : Fin 4) * 8 + 7 = (win0_7.index t (2 : Fin 4) * 128 + 2047) % 2048 ∧ win0_5.index t (3 : Fin 4) = 0 :=
  (by decide +kernel : ∀ t : Fin grid0.N, _)

theorem prev_val (r : Fin 2048) : (prev r).val = (r.val + 2047) % 2048 := rfl
theorem rowOf_val (H : Fin 16) (p : Fin 128) : (rowOf H p).val = H.val * 128 + p.val := rfl
theorem bandOf_val (t : Fin cfg0.N) : (bandOf t).val = win0_7.index t (2 : Fin 4) := rfl

/-- The last row of the strip above, at a row number `R` known to be the one just before the band, cyclically. -/
theorem read_5_at (c : Dev nD) (t : Fin cfg0.N) (q : Fin 2048) (R : Fin 2048)
    (hR : R.val = (win0_7.index t (2 : Fin 4) * 128 + 2047) % 2048) :
    iblk m c 5 t (ix4 (0 : Fin 1) (0 : Fin 1) (7 : Fin 8) q) = V m c main_arg0 (ix4 (batchOf t) (0 : Fin 3) R q) := by
  obtain ⟨e0, e1, e2, e3⟩ := facts_5 t
  show V m c main_arg0 (((cfg0.win 5).blk t).view.emb (ix4 (0 : Fin 1) (0 : Fin 1) (7 : Fin 8) q)) = _
  refine congrArg (V m c main_arg0) (funext fun k => Fin.ext ?_)
  match k with
  | ⟨0, _⟩ => show win0_5.index t (0 : Fin 4) * 1 + 1 * 0 = win0_7.index t (0 : Fin 4); omega
  | ⟨1, _⟩ => show win0_5.index t (1 : Fin 4) * 1 + 1 * 0 = 0; omega
  | ⟨2, _⟩ => show win0_5.index t (2 : Fin 4) * 8 + 1 * 7 = R.val; omega
  | ⟨3, _⟩ => show win0_5.index t (3 : Fin 4) * 2048 + 1 * q.val = q.val; omega

/-- The last row of the strip above is the row just before the band, cyclically. -/
theorem read_5 (c : Dev nD) (t : Fin cfg0.N) (q : Fin 2048) :
    iblk m c 5 t (ix4 (0 : Fin 1) (0 : Fin 1) (7 : Fin 8) q) = V m c main_arg0 (ix4 (batchOf t) (0 : Fin 3) (prev (rowOf (bandOf t) 0)) q) :=
  read_5_at m c t q _ (by
    have h0 : ((0 : Fin 128) : ℕ) = 0 := rfl
    rw [prev_val, rowOf_val, bandOf_val, h0])

theorem facts_6 : ∀ t : Fin cfg0.N,
    win0_6.index t (0 : Fin 4) = win0_7.index t (0 : Fin 4) ∧ win0_6.index t (1 : Fin 4) = 0
    ∧ win0_6.index t (2 : Fin 4) * 8 = (win0_7.index t (2 : Fin 4) * 128 + 128) % 2048 ∧ win0_6.index t (3 : Fin 4) = 0 :=
  (by decide +kernel : ∀ t : Fin grid0.N, _)

/-- The first row of the strip below is the row just after the band, cyclically. -/
theorem read_6 (c : Dev nD) (t : Fin cfg0.N) (q : Fin 2048) :
    iblk m c 6 t (ix4 (0 : Fin 1) (0 : Fin 1) (0 : Fin 8) q) = V m c main_arg0 (ix4 (batchOf t) (0 : Fin 3) (next (rowOf (bandOf t) 127)) q) := by
  obtain ⟨e0, e1, e2, e3⟩ := facts_6 t
  show V m c main_arg0 (((cfg0.win 6).blk t).view.emb (ix4 (0 : Fin 1) (0 : Fin 1) (0 : Fin 8) q)) = _
  refine congrArg (V m c main_arg0) (funext fun k => Fin.ext ?_)
  match k with
  | ⟨0, _⟩ => show win0_6.index t (0 : Fin 4) * 1 + 1 * 0 = win0_7.index t (0 : Fin 4); omega
  | ⟨1, _⟩ => show win0_6.index t (1 : Fin 4) * 1 + 1 * 0 = 0; omega
  | ⟨2, _⟩ => show win0_6.index t (2 : Fin 4) * 8 + 1 * 0 = (win0_7.index t (2 : Fin 4) * 128 + 127 + 1) % 2048; omega
  | ⟨3, _⟩ => show win0_6.index t (3 : Fin 4) * 2048 + 1 * q.val = q.val; omega

/-- An entry of the written block sits, in the array, at the block's batch and band. -/
theorem out_emb (t : Fin cfg0.N) (a : Fin 1) (ch : Fin 3) (p : Fin 128) (q : Fin 2048) :
    ((cfg0.win 7).blk t).view.emb (ix4 a ch p q) = ix4 (batchOf t) ch (rowOf (bandOf t) p) q := by
  obtain ⟨e0, e1, e2, e3⟩ := facts_7 t
  have ha : a.val = 0 := by omega
  funext k; apply Fin.ext
  match k with
  | ⟨0, _⟩ => show win0_7.index t (0 : Fin 4) * 1 + 1 * a.val = win0_7.index t (0 : Fin 4); omega
  | ⟨1, _⟩ => show win0_7.index t (1 : Fin 4) * 3 + 1 * ch.val = ch.val; omega
  | ⟨2, _⟩ => show win0_7.index t (2 : Fin 4) * 128 + 1 * p.val = win0_7.index t (2 : Fin 4) * 128 + p.val; omega
  | ⟨3, _⟩ => show win0_7.index t (3 : Fin 4) * 2048 + 1 * q.val = q.val; omega

/-- What point `t` writes back is its block of `sweep` of the argument arrays. -/
theorem flushed_eq (c : Dev nD) (t : Fin cfg0.N) :
    (dats m 0 c).flushed 7 t
      = ((cfg0.win 7).blk t).view.read (Elt F) (sweep (V m c main_arg0) (V m c main_arg1) (V m c main_arg2)) := by
  show (cfg0.win 7).cut (grid0.coords t) ((dats m 0 c).after 7 t) = _
  rw [after_7]
  have key : ∀ y : S1x3x128x2048.Idx,
      outBlock (iblk m c 0 t) (iblk m c 1 t) (iblk m c 2 t) (iblk m c 3 t) (iblk m c 4 t) (iblk m c 5 t) (iblk m c 6 t) y
        = sweep (V m c main_arg0) (V m c main_arg1) (V m c main_arg2) (((cfg0.win 7).blk t).view.emb y) := by
    intro y
    obtain ⟨a, ch, p, q, rfl⟩ : ∃ (a : Fin 1) (ch : Fin 3) (p : Fin 128) (q : Fin 2048), y = ix4 a ch p q :=
      ⟨y 0, y 1, y 2, y 3, eq_ix4 y⟩
    rw [outBlock_apply, out_emb]
    exact block_eq (V m c main_arg0) (V m c main_arg1) (V m c main_arg2) _ _ _ _ _ _ _ (batchOf t) (bandOf t)
      (read_0 m c t) (read_1 m c t) (read_2 m c t) (read_3 m c t) (read_4 m c t) (read_5 m c t) (read_6 m c t) a ch p q
  exact funext key

/-! ## The blocks tile the array -/

theorem mem_blk (t : Fin cfg0.N) (i : S4x3x2048x2048.Idx) :
    i ∈ ((cfg0.win 7).blk t).view.set ↔ ∀ a : Fin 4, win0_7.index t a * S1x3x128x2048.size a ≤ (i a).val
      ∧ (i a).val < win0_7.index t a * S1x3x128x2048.size a + S1x3x128x2048.size a := by
  show i ∈ ((View.whole main_v0).slice (win0_7.rect t)).set ↔ _
  rw [View.set_slice_whole, Rect.mem_set_unit]
  exact Iff.rfl

/-- Every index of the array lies in the block of the point at its batch and at the band of its row. -/
theorem covered (i : S4x3x2048x2048.Idx) :
    ∃ t : Fin cfg0.N, (cfg0.win 7).flush t = true ∧ i ∈ ((cfg0.win 7).blk t).view.set := by
  have hi0 : (i 0).val < 4 := (i 0).isLt
  have hi1 : (i 1).val < 3 := (i 1).isLt
  have hi2 : (i 2).val < 2048 := (i 2).isLt
  have hi3 : (i 3).val < 2048 := (i 3).isLt
  obtain ⟨t, ht⟩ := idx_onto ⟨(i 0).val, hi0⟩ ⟨(i 2).val / 128, by omega⟩
  have q0 : win0_7.index t (0 : Fin 4) = (i 0).val := congrFun ht 0
  have q1 : win0_7.index t (1 : Fin 4) = 0 := congrFun ht 1
  have q2 : win0_7.index t (2 : Fin 4) = (i 2).val / 128 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 3 ≤ (i 1).val ∧ (i 1).val < win0_7.index t (1 : Fin 4) * 3 + 3; omega
  | ⟨2, _⟩ => show win0_7.index t (2 : Fin 4) * 128 ≤ (i 2).val ∧ (i 2).val < win0_7.index t (2 : Fin 4) * 128 + 128; omega
  | ⟨3, _⟩ => show win0_7.index t (3 : Fin 4) * 2048 ≤ (i 3).val ∧ (i 3).val < win0_7.index t (3 : Fin 4) * 2048 + 2048; omega

/-- When the sweep ends the result array is `sweep` of the argument arrays. -/
theorem final (c : Dev nD) : (dats m 0 c).arrAt 7 cfg0.N
    = sweep (m ((c : Thread nD τ).loc main_arg0)) (m ((c : Thread nD τ).loc main_arg1)) (m ((c : Thread nD τ).loc main_arg2)) :=
  (dats m 0 c).arrAt_eq_of_cover 7 _ (fun t _ => flushed_eq m c t) covered

/-- The sweep runs to its end with the result array at `sweep` of the argument arrays and those unchanged. -/
theorem run_value : θ_run defs (onTc (τ := τ) (main (F := F))) ⟨m, fun _ => 0, ρ⟩ (fun r => ∀ c : Dev nD,
      r.2.mem ((c.tc : Thread nD τ).loc main_v0)
        = sweep (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 7).trans (final m c), (h c 0).trans (kept_arg0 m c),
      (h c 3).trans (kept_arg1 m c), (h c 4).trans (kept_arg2 m c)⟩)
    (run_main m ρ)

end Cert.KernelIdeal.Sweep

end
-- ==== Proof.RefValue.lean ====
/-
  The reference program, read as the whole-array update.

  The reference cuts the three planes out of `x`, builds the four neighbour arrays by cyclic shifts of the spin
  plane (each shift a one-row or one-column strip moved to the other end), and applies the site update at every
  site at once.  Read at one index it is `sweep` of `Spec`.  Three small laws of the extended reals join the two
  spellings: a sum started from zero is the sum; minus `e` is `0 - e`; and `(-2) c + 1` for a bit `c` read as
  0 or 1 is `-1` when the bit is set and `1` when it is not.
-/
import proofs.«100500_j47450798686483_2_alg».proof.Proof.Gen.ReferenceIdeal.Read
import proofs.«100500_j47450798686483_2_alg».proof.Proof.Spec
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Cert.ReferenceIdeal.Read Cert.Lattice
open Idealize.ShloMosaic Idealize.ShloMosaic.ValueIdx

/-! ## Three laws of the extended reals -/

theorem ofBits_neg_two : Ideal.ofBits .f32 0xC0000000#32 = ((-2 : ℝ) : EReal) := by
  simp [Ideal.ofBits, Ideal.ieee, -EReal.coe_mul, -EReal.coe_neg]; norm_num

theorem ofBits_neg_one : Ideal.ofBits .f32 0xBF800000#32 = ((-1 : ℝ) : EReal) := by
  simp [Ideal.ofBits, Ideal.ieee, -EReal.coe_mul, -EReal.coe_neg]; norm_num

/-- `(-2) c + 1` for a bit `c` read as 0 or 1 is `-1` when the bit is set and `1` when it is not. -/
theorem flip_eq (c : BitVec 1) :
    (FloatOps.addf (F := Ideal) (FloatOps.mulf (FloatOps.ofBits .f32 0xC0000000#32) (FloatOps.uitofp .f32 c)) (FloatOps.ofBits .f32 0x3F800000#32) : Ideal .f32)
      = Scalar.select c (FloatOps.ofBits .f32 0xBF800000#32) (FloatOps.ofBits .f32 0x3F800000#32) := by
  rcases BitVec.eq_zero_or_eq_one c with rfl | rfl
  · rw [select_zero]
    show Ideal.ofBits .f32 0xC0000000#32 * (((0 : ℕ) : ℝ) : EReal) + Ideal.ofBits .f32 0x3F800000#32 = Ideal.ofBits .f32 0x3F800000#32
    simp
  · rw [select_one]
    show Ideal.ofBits .f32 0xC0000000#32 * (((1 : ℕ) : ℝ) : EReal) + Ideal.ofBits .f32 0x3F800000#32 = Ideal.ofBits .f32 0xBF800000#32
    rw [ofBits_neg_two, ofBits_neg_one, Ideal.ofBits_one_f32]
    rw [Nat.cast_one, ← EReal.coe_one, ← EReal.coe_mul, ← EReal.coe_add]
    norm_num

/-- A sum started from the zero word is the sum. -/
theorem zero_addf (x : Ideal .f32) : FloatOps.addf (F := Ideal) (FloatOps.ofBits .f32 0x00000000#32) x = x := by
  show Ideal.ofBits .f32 0x00000000#32 + x = x
  rw [Ideal.ofBits_zero_f32, zero_add]

/-- Minus `e` is zero less `e`. -/
theorem negf_eq (e : Ideal .f32) : FloatOps.hostNegf (F := Ideal) e = FloatOps.subf (FloatOps.ofBits .f32 0x00000000#32) e := by
  show -e = Ideal.ofBits .f32 0x00000000#32 - e
  rw [Ideal.ofBits_zero_f32, zero_sub]

variable {F : FTy → Type} [FloatOps F]

/-! ## The four cyclic shifts of the spin plane, read at an index -/

/-- The plane moved down one row, its last row put first: the entry above, cyclically. -/
theorem up_ref (x0 : (⟨S4x3x2048x2048, .f32⟩ : BufTy).Contents (Elt F)) (b : Fin 4) (u : Fin 1) (r q : Fin 2048) :
    val_main_v4 (F := F) x0 (ix4 b u r q) = val_main_v0 (F := F) x0 (ix4 b u (prev r) q) := by
  unfold val_main_v4
  by_cases h : r.val = 0
  · refine (concatenate_pair_apply_left 2 _ _ concatenates_S4x1x1x2048_S4x1x2047x2048_S4x1x2048x2048_d2 (ix4 b u r q) rfl (ix4 b u (0 : Fin 1) q) (fun k => match k with
      | ⟨0, _⟩ => rfl
      | ⟨1, _⟩ => rfl
      | ⟨2, _⟩ => h.symm
      | ⟨3, _⟩ => rfl)).trans ?_
    rw [val_main_call0_v0_apply]
    refine congrArg (val_main_v0 (F := F) x0) (funext fun k => Fin.ext ?_)
    match k with
    | ⟨0, _⟩ => rfl
    | ⟨1, _⟩ => rfl
    | ⟨2, _⟩ => show 2047 + 0 = (r.val + 2047) % 2048; omega
    | ⟨3, _⟩ => rfl
  · have hc : r.val - 1 < 2047 := by have := r.isLt; omega
    refine (concatenate_pair_apply_right 2 _ _ concatenates_S4x1x1x2048_S4x1x2047x2048_S4x1x2048x2048_d2 (ix4 b u r q) rfl rfl (ix4 b u (⟨r.val - 1, hc⟩ : Fin 2047) q) (fun k hk => match k, hk with
      | ⟨0, _⟩, _ => rfl
      | ⟨1, _⟩, _ => rfl
      | ⟨2, _⟩, hk => absurd rfl hk
      | ⟨3, _⟩, _ => rfl) (by show r.val - 1 + 1 = r.val; omega)).trans ?_
    rw [val_main_call0_v1_apply]
    refine congrArg (val_main_v0 (F := F) x0) (funext fun k => Fin.ext ?_)
    match k with
    | ⟨0, _⟩ => rfl
    | ⟨1, _⟩ => rfl
    | ⟨2, _⟩ => show r.val - 1 = (r.val + 2047) % 2048; have := r.isLt; omega
    | ⟨3, _⟩ => rfl

/-- The plane moved up one row, its first row put last: the entry below, cyclically. -/
theorem down_ref (x0 : (⟨S4x3x2048x2048, .f32⟩ : BufTy).Contents (Elt F)) (b : Fin 4) (u : Fin 1) (r q : Fin 2048) :
    val_main_v6 (F := F) x0 (ix4 b u r q) = val_main_v0 (F := F) x0 (ix4 b u (next r) q) := by
  unfold val_main_v6
  by_cases h : r.val < 2047
  · refine (concatenate_pair_apply_left 2 _ _ concatenates_S4x1x2047x2048_S4x1x1x2048_S4x1x2048x2048_d2 (ix4 b u r q) rfl (ix4 b u (⟨r.val, h⟩ : Fin 2047) q) (fun k => match k with
      | ⟨0, _⟩ => rfl
      | ⟨1, _⟩ => rfl
      | ⟨2, _⟩ => rfl
      | ⟨3, _⟩ => rfl)).trans ?_
    rw [val_main_call1_v0_apply]
    refine congrArg (val_main_v0 (F := F) x0) (funext fun k => Fin.ext ?_)
    match k with
    | ⟨0, _⟩ => rfl
    | ⟨1, _⟩ => rfl
    | ⟨2, _⟩ => show 1 + r.val = (r.val + 1) % 2048; omega
    | ⟨3, _⟩ => rfl
  · refine (concatenate_pair_apply_right 2 _ _ concatenates_S4x1x2047x2048_S4x1x1x2048_S4x1x2048x2048_d2 (ix4 b u r q) rfl rfl (ix4 b u (0 : Fin 1) q) (fun k hk => match k, hk with
      | ⟨0, _⟩, _ => rfl
      | ⟨1, _⟩, _ => rfl
      | ⟨2, _⟩, hk => absurd rfl hk
      | ⟨3, _⟩, _ => rfl) (by show 0 + 2047 = r.val; have := r.isLt; omega)).trans ?_
    rw [val_main_call1_v1_apply]
    refine congrArg (val_main_v0 (F := F) x0) (funext fun k => Fin.ext ?_)
    match k with
    | ⟨0, _⟩ => rfl
    | ⟨1, _⟩ => rfl
    | ⟨2, _⟩ => show 0 = (r.val + 1) % 2048; have := r.isLt; omega
    | ⟨3, _⟩ => rfl

/-- The plane moved right one column, its last column put first: the entry on the left, cyclically. -/
theorem left_ref (x0 : (⟨S4x3x2048x2048, .f32⟩ : BufTy).Contents (Elt F)) (b : Fin 4) (u : Fin 1) (r q : Fin 2048) :
    val_main_v8 (F := F) x0 (ix4 b u r q) = val_main_v0 (F := F) x0 (ix4 b u r (prev q)) := by
  unfold val_main_v8
  by_cases h : q.val = 0
  · refine (concatenate_pair_apply_left 3 _ _ concatenates_S4x1x2048x1_S4x1x2048x2047_S4x1x2048x2048_d3 (ix4 b u r q) rfl (ix4 b u r (0 : Fin 1)) (fun k => match k with
      | ⟨0, _⟩ => rfl
      | ⟨1, _⟩ => rfl
      | ⟨2, _⟩ => rfl
      | ⟨3, _⟩ => h.symm)).trans ?_
    rw [val_main_call2_v0_apply]
    refine congrArg (val_main_v0 (F := F) x0) (funext fun k => Fin.ext ?_)
    match k with
    | ⟨0, _⟩ => rfl
    | ⟨1, _⟩ => rfl
    | ⟨2, _⟩ => rfl
    | ⟨3, _⟩ => show 2047 + 0 = (q.val + 2047) % 2048; omega
  · have hc : q.val - 1 < 2047 := by have := q.isLt; omega
    refine (concatenate_pair_apply_right 3 _ _ concatenates_S4x1x2048x1_S4x1x2048x2047_S4x1x2048x2048_d3 (ix4 b u r q) rfl rfl (ix4 b u r (⟨q.val - 1, hc⟩ : Fin 2047)) (fun k hk => match k, hk with
      | ⟨0, _⟩, _ => rfl
      | ⟨1, _⟩, _ => rfl
      | ⟨2, _⟩, _ => rfl
      | ⟨3, _⟩, hk => absurd rfl hk) (by show q.val - 1 + 1 = q.val; omega)).trans ?_
    rw [val_main_call2_v1_apply]
    refine congrArg (val_main_v0 (F := F) x0) (funext fun k => Fin.ext ?_)
    match k with
    | ⟨0, _⟩ => rfl
    | ⟨1, _⟩ => rfl
    | ⟨2, _⟩ => rfl
    | ⟨3, _⟩ => show q.val - 1 = (q.val + 2047) % 2048; have := q.isLt; omega

/-- The plane moved left one column, its first column put last: the entry on the right, cyclically. -/
theorem right_ref (x0 : (⟨S4x3x2048x2048, .f32⟩ : BufTy).Contents (Elt F)) (b : Fin 4) (u : Fin 1) (r q : Fin 2048) :
    val_main_v10 (F := F) x0 (ix4 b u r q) = val_main_v0 (F := F) x0 (ix4 b u r (next q)) := by
  unfold val_main_v10
  by_cases h : q.val < 2047
  · refine (concatenate_pair_apply_left 3 _ _ concatenates_S4x1x2048x2047_S4x1x2048x1_S4x1x2048x2048_d3 (ix4 b u r q) rfl (ix4 b u r (⟨q.val, h⟩ : Fin 2047)) (fun k => match k with
      | ⟨0, _⟩ => rfl
      | ⟨1, _⟩ => rfl
      | ⟨2, _⟩ => rfl
      | ⟨3, _⟩ => rfl)).trans ?_
    rw [val_main_call3_v0_apply]
    refine congrArg (val_main_v0 (F := F) x0) (funext fun k => Fin.ext ?_)
    match k with
    | ⟨0, _⟩ => rfl
    | ⟨1, _⟩ => rfl
    | ⟨2, _⟩ => rfl
    | ⟨3, _⟩ => show 1 + q.val = (q.val + 1) % 2048; omega
  · refine (concatenate_pair_apply_right 3 _ _ concatenates_S4x1x2048x2047_S4x1x2048x1_S4x1x2048x2048_d3 (ix4 b u r q) rfl rfl (ix4 b u r (0 : Fin 1)) (fun k hk => match k, hk with
      | ⟨0, _⟩, _ => rfl
      | ⟨1, _⟩, _ => rfl
      | ⟨2, _⟩, _ => rfl
      | ⟨3, _⟩, hk => absurd rfl hk) (by show 0 + 2047 = q.val; have := q.isLt; omega)).trans ?_
    rw [val_main_call3_v1_apply]
    refine congrArg (val_main_v0 (F := F) x0) (funext fun k => Fin.ext ?_)
    match k with
    | ⟨0, _⟩ => rfl
    | ⟨1, _⟩ => rfl
    | ⟨2, _⟩ => rfl
    | ⟨3, _⟩ => show 0 = (q.val + 1) % 2048; have := q.isLt; omega

/-- The three planes cut out of `x`, read at an index. -/
theorem plane0_ref (x0 : (⟨S4x3x2048x2048, .f32⟩ : BufTy).Contents (Elt F)) (b : Fin 4) (u : Fin 1) (r q : Fin 2048) :
    val_main_v0 (F := F) x0 (ix4 b u r q) = x0 (ix4 b (0 : Fin 3) r q) := by
  rw [val_main_v0_apply]
  refine congrArg x0 (funext fun k => Fin.ext ?_)
  match k with
  | ⟨0, _⟩ => rfl
  | ⟨1, _⟩ => show u.val = 0; omega
  | ⟨2, _⟩ => rfl
  | ⟨3, _⟩ => rfl
theorem plane1_ref (x0 : (⟨S4x3x2048x2048, .f32⟩ : BufTy).Contents (Elt F)) (b : Fin 4) (u : Fin 1) (r q : Fin 2048) :
    val_main_v1 (F := F) x0 (ix4 b u r q) = x0 (ix4 b (1 : Fin 3) r q) := by
  rw [val_main_v1_apply]
  refine congrArg x0 (funext fun k => Fin.ext ?_)
  match k with
  | ⟨0, _⟩ => rfl
  | ⟨1, _⟩ => show 1 + u.val = 1; omega
  | ⟨2, _⟩ => rfl
  | ⟨3, _⟩ => rfl
theorem plane2_ref (x0 : (⟨S4x3x2048x2048, .f32⟩ : BufTy).Contents (Elt F)) (b : Fin 4) (u : Fin 1) (r q : Fin 2048) :
    val_main_v2 (F := F) x0 (ix4 b u r q) = x0 (ix4 b (2 : Fin 3) r q) := by
  rw [val_main_v2_apply]
  refine congrArg x0 (funext fun k => Fin.ext ?_)
  match k with
  | ⟨0, _⟩ => rfl
  | ⟨1, _⟩ => show 2 + u.val = 2; omega
  | ⟨2, _⟩ => rfl
  | ⟨3, _⟩ => rfl

/-- The keep mask, the same for every batch, read at an index. -/
theorem mask_ref (x2 : (⟨S2048x2048, .f32⟩ : BufTy).Contents (Elt F)) (b : Fin 4) (u : Fin 1) (r q : Fin 2048) :
    val_main_v26 (F := F) x2 (ix4 b u r q) = FloatOps.cmpf .ogt (x2 (ix2 r q)) (FloatOps.ofBits .f32 0x3F000000#32) := by
  rw [val_main_v26_apply, val_main_v24_apply, val_main_v23_apply, val_main_v22_apply, val_main_cst_3_apply]
  have e : idx_main_v24 (idx_main_v26 (ix4 b u r q)) = ix2 r q := by
    funext k; apply Fin.ext
    match k with
    | ⟨0, _⟩ => rfl
    | ⟨1, _⟩ => rfl
  rw [e]

/-! ## The reference at a site -/

/-- Plane 0 of the reference's result at a site: the new spin. -/
theorem spin_ref (x0 : (⟨S4x3x2048x2048, .f32⟩ : BufTy).Contents (Elt Ideal)) (x1 : (⟨S4x1x2048x2048, .f32⟩ : BufTy).Contents (Elt Ideal))
    (x2 : (⟨S2048x2048, .f32⟩ : BufTy).Contents (Elt Ideal)) (b : Fin 4) (u : Fin 1) (r q : Fin 2048) :
    val_main_v38 (F := Ideal) x0 x1 x2 (ix4 b u r q)
      = newSpin (F := Ideal) (x0 (ix4 b (0 : Fin 3) r q)) (x0 (ix4 b (0 : Fin 3) (prev r) q)) (x0 (ix4 b (0 : Fin 3) (next r) q))
          (x0 (ix4 b (0 : Fin 3) r (prev q))) (x0 (ix4 b (0 : Fin 3) r (next q))) (x0 (ix4 b (2 : Fin 3) r q))
          (x1 (ix4 b u r q)) (x2 (ix2 r q)) := by
  rw [val_main_v38_apply, val_main_v32_apply, val_main_v30_apply, val_main_v29_apply, val_main_cst_4_apply, val_main_v31_apply,
    val_main_cst_5_apply, val_main_v28_apply, val_main_v27_apply, mask_ref, val_main_v25_apply, val_main_v21_apply, val_main_v17_apply,
    val_main_cst_2_apply, val_main_v16_apply, val_main_v15_apply, val_main_cst_1_apply, val_main_v20_apply, val_main_v19_apply,
    val_main_v18_apply, val_main_v14_apply, val_main_v13_apply, val_main_v12_apply, val_main_cst_0_apply, val_main_v11_apply,
    val_main_v9_apply, val_main_v7_apply, val_main_v5_apply, val_main_v3_apply, val_main_cst_apply, up_ref, down_ref, left_ref, right_ref]
  simp only [plane0_ref, plane2_ref]
  rw [flip_eq, zero_addf, negf_eq]
  rfl

/-- Plane 1 of the reference's result at a site: the new trace. -/
theorem trace_ref (x0 : (⟨S4x3x2048x2048, .f32⟩ : BufTy).Contents (Elt Ideal)) (b : Fin 4) (u : Fin 1) (r q : Fin 2048) :
    val_main_v37 (F := Ideal) x0 (ix4 b u r q)
      = newTrace (F := Ideal) (x0 (ix4 b (0 : Fin 3) r q)) (x0 (ix4 b (1 : Fin 3) r q)) := by
  rw [val_main_v37_apply, val_main_v34_apply, val_main_v33_apply, val_main_cst_6_apply, val_main_v36_apply, val_main_v35_apply,
    val_main_cst_7_apply, plane0_ref, plane1_ref]
  rfl

/-! ## The reference's result is the whole-array update -/

theorem ref_eq (x0 : (⟨S4x3x2048x2048, .f32⟩ : BufTy).Contents (Elt Ideal)) (x1 : (⟨S4x1x2048x2048, .f32⟩ : BufTy).Contents (Elt Ideal))
    (x2 : (⟨S2048x2048, .f32⟩ : BufTy).Contents (Elt Ideal)) :
    val_main_v39 (F := Ideal) x0 x1 x2 = sweep (F := Ideal) x0 x1 x2 := by
  funext i
  obtain ⟨b, ch, r, q, rfl⟩ : ∃ (b : Fin 4) (ch : Fin 3) (r q : Fin 2048), i = ix4 b ch r q := ⟨i 0, i 1, i 2, i 3, eq_ix4 i⟩
  have hch : ch.val < 3 := ch.isLt
  unfold val_main_v39 sweep
  show concatenate S4x3x2048x2048 1 _ _ (ix4 b ch r q) = (if ch.val = 0 then _ else if ch.val = 1 then _ else _)
  by_cases h0 : ch.val = 0
  · rw [if_pos h0]
    refine ((concatenate_apply_piece 1 [⟨S4x1x2048x2048, val_main_v38 (F := Ideal) x0 x1 x2⟩, ⟨S4x1x2048x2048, val_main_v37 (F := Ideal) x0⟩, ⟨S4x1x2048x2048, val_main_v2 (F := Ideal) x0⟩] concatenates_S4x1x2048x2048_S4x1x2048x2048_S4x1x2048x2048_S4x3x2048x2048_d1 (ix4 b ch r q) 0 (by show (0 : ℕ) < 3; omega)
      S4x1x2048x2048 (val_main_v38 (F := Ideal) x0 x1 x2) rfl rfl 0 rfl (ix4 b (0 : Fin 1) r q) (fun k hk => match k, hk with
        | ⟨0, _⟩, _ => rfl
        | ⟨1, _⟩, hk => absurd rfl hk
        | ⟨2, _⟩, _ => rfl
        | ⟨3, _⟩, _ => rfl) (by show 0 + 0 = ch.val; omega))).trans ?_
    exact spin_ref x0 x1 x2 b 0 r q
  · rw [if_neg h0]
    by_cases h1 : ch.val = 1
    · rw [if_pos h1]
      refine ((concatenate_apply_piece 1 [⟨S4x1x2048x2048, val_main_v38 (F := Ideal) x0 x1 x2⟩, ⟨S4x1x2048x2048, val_main_v37 (F := Ideal) x0⟩, ⟨S4x1x2048x2048, val_main_v2 (F := Ideal) x0⟩] concatenates_S4x1x2048x2048_S4x1x2048x2048_S4x1x2048x2048_S4x3x2048x2048_d1 (ix4 b ch r q) 1 (by show (1 : ℕ) < 3; omega)
      S4x1x2048x2048 (val_main_v37 (F := Ideal) x0) rfl rfl 1 rfl (ix4 b (0 : Fin 1) r q) (fun k hk => match k, hk with
        | ⟨0, _⟩, _ => rfl
        | ⟨1, _⟩, hk => absurd rfl hk
        | ⟨2, _⟩, _ => rfl
        | ⟨3, _⟩, _ => rfl) (by show 1 + 0 = ch.val; omega))).trans ?_
      exact trace_ref x0 b 0 r q
    · rw [if_neg h1]
      refine ((concatenate_apply_piece 1 [⟨S4x1x2048x2048, val_main_v38 (F := Ideal) x0 x1 x2⟩, ⟨S4x1x2048x2048, val_main_v37 (F := Ideal) x0⟩, ⟨S4x1x2048x2048, val_main_v2 (F := Ideal) x0⟩] concatenates_S4x1x2048x2048_S4x1x2048x2048_S4x1x2048x2048_S4x3x2048x2048_d1 (ix4 b ch r q) 2 (by show (2 : ℕ) < 3; omega)
      S4x1x2048x2048 (val_main_v2 (F := Ideal) x0) rfl rfl 2 rfl (ix4 b (0 : Fin 1) r q) (fun k hk => match k, hk with
        | ⟨0, _⟩, _ => rfl
        | ⟨1, _⟩, hk => absurd rfl hk
        | ⟨2, _⟩, _ => rfl
        | ⟨3, _⟩, _ => rfl) (by show 2 + 0 = ch.val; omega))).trans ?_
      exact plane2_ref x0 b 0 r q

end Cert.ReferenceIdeal.RefValue

end
-- ==== Proof.lean ====
/-
  The lattice sweep and its reference compute the same three-plane array.

  Both programs update every site of a periodic 2048 x 2048 spin lattice (four batches) by one Metropolis step
  and keep a running trace of the spins (`Proof/Spec.lean` states the update, `sweep`).  The first program does
  it band by band: 64 points, each on a 128-row band of one batch with the two neighbouring rows fetched as
  strips, each writing its band of the result (`Proof/IdealBody.lean`, `IdealRun.lean`: every point runs, the
  sweep ends, the arguments are unchanged; `IdealPoint.lean`, `IdealValue.lean`: the bands are `sweep`'s).  The
  reference does it on whole arrays, the neighbours by cyclic shifts (`Proof/RefValue.lean`: its result is
  `sweep` too).  The update never divides, cancels or distributes: the two sides apply the same operations to
  the same entries, and the three places they are spelt differently (a sum started from zero, a negation written
  as a difference from zero, a sign written as (-2) c + 1) agree on all extended reals, so the inputs' finiteness
  is not used.
-/
import proofs.«100500_j47450798686483_2_alg».proof.Defs
import proofs.«100500_j47450798686483_2_alg».proof.Proof.Gen.Kernel
import proofs.«100500_j47450798686483_2_alg».proof.Proof.Gen.KernelIdeal
import proofs.«100500_j47450798686483_2_alg».proof.Proof.Gen.ReferenceIdeal
import proofs.«100500_j47450798686483_2_alg».proof.Proof.Gen.ReferenceIdeal.Run
import proofs.«100500_j47450798686483_2_alg».proof.Proof.Gen.ReferenceIdeal.Read
import proofs.«100500_j47450798686483_2_alg».proof.Proof.Gen.Pre_finite_inputs
import proofs.«100500_j47450798686483_2_alg».proof.Proof.BitsRun
import proofs.«100500_j47450798686483_2_alg».proof.Proof.IdealValue
import proofs.«100500_j47450798686483_2_alg».proof.Proof.RefValue
import Idealize.ShloMosaic.Adequacy
import Idealize.ShloMosaic.Init

noncomputable section

namespace Cert.Proof

open Idealize.ShloMosaic Idealize.ShloMosaic.TcCoe Idealize.SL.Sem Cert.Lattice

/-- The sweep as printed, on words: it runs to its end and leaves its arguments unchanged. -/
theorem frame_k : Cert.frame_Kernel (hKernel := Cert.Kernel.Gen.facts) (hPre_finite_inputs := Cert.Pre_finite_inputs.Gen.facts) :=
  fun m ρ _ => Cert.Kernel.Sweep.frame m ρ

/-- The same read on extended reals. -/
theorem frame_ki : Cert.frame_KernelIdeal (hKernelIdeal := Cert.KernelIdeal.Gen.facts) (hPre_finite_inputs := Cert.Pre_finite_inputs.Gen.facts) :=
  fun m ρ _ => Cert.KernelIdeal.Sweep.frame m ρ

/-- The reference runs to its end and leaves its arguments unchanged. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Nothing of the sweep's text was rewritten for the reading on extended reals. -/
theorem preserves : Cert.preserves_Kernel_KernelIdeal := trivial

/-- From memories that agree on the arguments both programs end with the result array at `sweep` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => sweep (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Sweep.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
